-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg11 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S64 .f32) (main_arg8 : FVec F S64x128 .f32) (main_arg9 : FVec F S64 .f32) (main_arg10 : FVec F S64x64 .f32) (main_arg11 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_v48 main_v49 main_v50

def fn_part1 {F : FTy → Type} [FloatOps F] (main_arg4 : FVec F S64x128 .f32) (main_arg5 : FVec F S64 .f32) (main_arg6 : FVec F S64x64 .f32) (main_arg7 : FVec F S64 .f32) (main_arg8 : FVec F S64x128 .f32) (main_arg9 : FVec F S64 .f32) (main_arg10 : FVec F S64x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S64x128 .f32) (main_arg5 : FVec F S64 .f32) (main_arg6 : FVec F S64x64 .f32) (main_arg7 : FVec F S64 .f32) (main_arg8 : FVec F S64x128 .f32) (main_arg9 : FVec F S64 .f32) (main_arg10 : FVec F S64x64 .f32) (main_arg11 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x128 : Shape := ⟨2, ![1, 128]⟩
abbrev S1x64 : Shape := ⟨2, ![1, 64]⟩
abbrev S10000x64 : Shape := ⟨2, ![10000, 64]⟩
abbrev S200x10000 : Shape := ⟨2, ![200, 10000]⟩
abbrev S400x64 : Shape := ⟨2, ![400, 64]⟩
abbrev S200x128 : Shape := ⟨2, ![200, 128]⟩
abbrev S400x128 : Shape := ⟨2, ![400, 128]⟩

abbrev nBuf : Space → Nat
  | .hbm => 19
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x128, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S10000x64, .f32⟩
  | .hbm, ⟨18, _⟩ => ⟨S10000x64, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S128x128, .f32⟩
  | .local _ .vmem, ⟨6, _⟩ => ⟨S1x128, .f32⟩
  | .local _ .vmem, ⟨7, _⟩ => ⟨S64x128, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S64x128, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S400x64, .f32⟩
  | .local _ .vmem, ⟨16, _⟩ => ⟨S400x64, .f32⟩
  | .local _ .vmem, ⟨17, _⟩ => ⟨S400x64, .f32⟩
  | .local _ .vmem, ⟨18, _⟩ => ⟨S400x64, .f32⟩
  | .local _ .vmem, ⟨19, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S400x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S400x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  concatenates_S200x128_S200x128_S400x128_d0 : Shape.Concatenates [S200x128, S200x128] S400x128 0
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  inb_S400x64_S400x64_0_0 : ∀ a, (![0, 0] : Fin 2 → Nat) a + S400x64.size a ≤ S400x64.size a
  h_S400x64 : 0 < S400x64.numel
  dot_S10000x128_S128x128_S10000x128_1_1_0_0_n_n_wf : DotDims.WF S10000x128 S128x128 S10000x128 [1] [1] [0] [0] [] []
  dot_S200x10000_S10000x128_S200x128_1_0_0_1_n_n_wf : DotDims.WF S200x10000 S10000x128 S200x128 [1] [0] [0] [1] [] []
  dot_S400x128_S64x128_S400x64_1_1_0_0_n_n_wf : DotDims.WF S400x128 S64x128 S400x64 [1] [1] [0] [0] [] []
  dot_S400x64_S64x64_S400x64_1_1_0_0_n_n_wf : DotDims.WF S400x64 S64x64 S400x64 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S400x64.size a ≤ S10000x64.size a
  hwx0_13 : ∀ i : grid0.Coords, EltTy.bits .f32 = 32 ∨ (Rect.block (s := S10000x64) S400x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S400x64.size a ≤ S10000x64.size a
  hwx0_14 : ∀ i : grid0.Coords, EltTy.bits .f32 = 32 ∨ (Rect.block (s := S10000x64) S400x64.size (cc0_transform_14 i) (hinb0_14 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S400x128_S64x128_S400x64_1_1_0_0_n_n : DotDims S400x128 S64x128 S400x64 where
  lhsContracting := [1]
  rhsContracting := [1]
  lhsNonContracting := [0]
  rhsNonContracting := [0]
  lhsBatch := []
  rhsBatch := []
  wf := dot_S400x128_S64x128_S400x64_1_1_0_0_n_n_wf
def dot_S400x64_S64x64_S400x64_1_1_0_0_n_n : DotDims S400x64 S64x64 S400x64 where
  lhsContracting := [1]
  rhsContracting := [1]
  lhsNonContracting := [0]
  rhsNonContracting := [0]
  lhsBatch := []
  rhsBatch := []
  wf := dot_S400x64_S64x64_S400x64_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5_0) S400x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5_1) S400x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x128 : Shape := ⟨2, ![1, 128]⟩
abbrev S_ : Shape := ⟨0, ![]⟩
abbrev S128x64 : Shape := ⟨2, ![128, 64]⟩
abbrev S10000x64 : Shape := ⟨2, ![10000, 64]⟩
abbrev S1x64 : Shape := ⟨2, ![1, 64]⟩

abbrev nBuf : Space → Nat
  | .hbm => 61
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | .hbm, ⟨21, _⟩ => ⟨S128x64, .f32⟩
  | .hbm, ⟨22, _⟩ => ⟨S10000x64, .f32⟩
  | .hbm, ⟨23, _⟩ => ⟨S1x64, .f32⟩
  | .hbm, ⟨24, _⟩ => ⟨S10000x64, .f32⟩
  | .hbm, ⟨25, _⟩ => ⟨S10000x64, .f32⟩
  | .hbm, ⟨26, _⟩ => ⟨S_, .f32⟩
  | .hbm, ⟨27, _⟩ => ⟨S10000x64, .f32⟩
  | .hbm, ⟨28, _⟩ => ⟨S10000x64, .f32⟩
  | .hbm, ⟨29, _⟩ => ⟨S64x64, .f32⟩
  | .hbm, ⟨30, _⟩ => ⟨S10000x64, .f32⟩
  | .hbm, ⟨31, _⟩ => ⟨S1x64, .f32⟩
  | .hbm, ⟨32, _⟩ => ⟨S10000x64, .f32⟩
  | .hbm, ⟨33, _⟩ => ⟨S10000x64, .f32⟩
  | .hbm, ⟨34, _⟩ => ⟨S128x64, .f32⟩
  | .hbm, ⟨35, _⟩ => ⟨S10000x64, .f32⟩
  | .hbm, ⟨36, _⟩ => ⟨S1x64, .f32⟩
  | .hbm, ⟨37, _⟩ => ⟨S10000x64, .f32⟩
  | .hbm, ⟨38, _⟩ => ⟨S10000x64, .f32⟩
  | .hbm, ⟨39, _⟩ => ⟨S_, .f32⟩
  | .hbm, ⟨40, _⟩ => ⟨S10000x64, .f32⟩
  | .hbm, ⟨41, _⟩ => ⟨S10000x64, .f32⟩
  | .hbm, ⟨42, _⟩ => ⟨S64x64, .f32⟩
  | .hbm, ⟨43, _⟩ => ⟨S10000x64, .f32⟩
  | .hbm, ⟨44, _⟩ => ⟨S1x64, .f32⟩
  | .hbm, ⟨45, _⟩ => ⟨S10000x64, .f32⟩
  | .hbm, ⟨46, _⟩ => ⟨S10000x64, .f32⟩
  | .hbm, ⟨47, _⟩ => ⟨S_, .f32⟩
  | .hbm, ⟨48, _⟩ => ⟨S10000x64, .f32⟩
  | .hbm, ⟨49, _⟩ => ⟨S10000x64, .f32⟩
  | .hbm, ⟨50, _⟩ => ⟨S10000x64, .f32⟩
  | .hbm, ⟨51, _⟩ => ⟨S10000x64, .f32⟩
  | .hbm, ⟨52, _⟩ => ⟨S10000x64, .i1⟩
  | .hbm, ⟨53, _⟩ => ⟨S10000x64, .f32⟩
  | .hbm, ⟨54, _⟩ => ⟨S10000x64, .f32⟩
  | .hbm, ⟨55, _⟩ => ⟨S10000x64, .f32⟩
  | .hbm, ⟨56, _⟩ => ⟨S10000x64, .f32⟩
  | .hbm, ⟨57, _⟩ => ⟨S10000x64, .f32⟩
  | .hbm, ⟨58, _⟩ => ⟨S10000x64, .f32⟩
  | .hbm, ⟨59, _⟩ => ⟨S10000x64, .f32⟩
  | .hbm, ⟨60, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call1_cst : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call2_cst : Ref sig .tc := ⟨.hbm, 39, rfl⟩
abbrev main_call2_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call3_cst : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_v29 : Ref sig .tc := ⟨.hbm, 60, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  transposes_S64x64_S64x64_1_0 : S64x64.Transposes [1, 0] S64x64
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.LibFrameShared.lean ====
/-
  A frame run for a pipelined region whose INPUT windows may share an array.

  A kernel handed one array through several input windows (the same tensor read at two different blocks per grid
  point) has windows whose arrays are not pairwise distinct, so the array's full share has to be dealt among the
  windows on it: the proof data name each window's share (`Dat.q`), and the certificate says how the distinct buffers
  behind the arrays, each whole at the full share, make the data's `arrays` at entry (`hsplit`). The region keeps the
  scoped buffers that are no staging buffer (the scratch operands) in its invariant: anything before the first point
  (`hin`), forgotten after the last (`hout`); the generator register is let go (such a kernel draws nothing).
  The conclusion is the library's `Pipeline.FramePost`: every window's array ends at `Dat.arrAt w N` — an input at
  its entry contents, an output at those overwritten by what the body left at each write-back — and every unscoped
  buffer that is no window's array ends at its contents at the region's entry.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN of a region whose windows may SHARE ARRAYS, with a tracking invariant over the scratch the body
    carries between points: the staging cells pairwise distinct (`hinj`), the windows laid out as `WinFacts₀` says (the
    arrays need not be distinct), the body obligation at every point, nothing owed, @main up to the region (`hmain`),
    the arrays' buffers dealt among the windows at entry (`hsplit`), the invariant entered from the scoped rest (`hin`)
    and returned to it (`hout`). Every weakly fair execution terminates in a state satisfying `FramePost`. -/
theorem θ_run_frame_shared_track
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => (show _ ⊢ (scopedRest (Ix := Unit) (Name := ℕ) (U := UR sig nD τ) (Lvl := ℕ) (Val := Val) (cfg).spec c : sProp 𝕄) from by
      iintro ⟨-, HR⟩; iexact HR).trans (hin c))
    (hout := fun c => (hout c).trans (by
      iintro HR
      isplitr; · iempintro
      iexact HR))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline

end
-- ==== Proof.KBase.lean ====
/-
  The word-level kernel's region: what its frame run is stated over.

  @main reshapes the five bias vectors into rows and then enters one pipelined region of 25 points. The region has
  thirteen input windows — the feature matrix, TWO windows on the adjacency matrix (the even and the odd 200-row
  blocks of one array), the weights and the bias rows — and two output windows of 400 rows each, and the body keeps
  the projected features in a scratch buffer it fills at the first point only. Here: the arrays as the region finds
  them, each window's block at a point, that an input's staging buffer holds its block at every point, the one
  branch condition in closed form, and the names the body's runs use.
-/
import proofs.«181588_g59639915872695_cont_sun_m_860_27_alg».proof.Proof.Gen.Kernel.Launch
import proofs.«181588_g59639915872695_cont_sun_m_860_27_alg».proof.Proof.Gen.Kernel.Skeleton
import proofs.«181588_g59639915872695_cont_sun_m_860_27_alg».proof.Proof.Gen.Kernel.Points
import proofs.«181588_g59639915872695_cont_sun_m_860_27_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the five reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reshape writes its own result only: every argument array is found as launched. -/
theorem V_arg (c : Dev nD) (b : Ref sig .tc)
    (hb : b ≠ main_v0 ∧ b ≠ main_v1 ∧ b ≠ main_v2 ∧ b ≠ main_v3 ∧ b ≠ main_v4) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2.1, StableHlo.devRef_ne_of_ne hb.2.2.2.2⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body fills its scratch under this condition on the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## No window is ever idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel

/-! ## The memrefs the body is called with -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S400x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S400x64 .f32 := win0_14.stage (cfg0.slots t 14)
abbrev hs0_14 (t : Fin cfg0.N) : (ms0_14 t).IsWhole := hstage0_14 ((cfg0.slots t 14).cast nbuf0_14)
/-- The scratch: a whole scoped buffer of the kernel's own. -/
abbrev scM0_0 : Memref sig .tc .vmem S10000x128 .bf16 := Memref.whole cc0_scratch0
abbrev VS0_0 : View sig .tc .vmem S10000x128 .bf16 := scM0_0.view
/-- One staging buffer of each output window, through which its contents are stated. -/
abbrev VO0_13 : View sig .tc .vmem S400x64 .f32 := (Memref.whole cc0_stg13_0 : Memref sig .tc .vmem S400x64 .f32).view
abbrev VO0_14 : View sig .tc .vmem S400x64 .f32 := (Memref.whole cc0_stg14_0 : Memref sig .tc .vmem S400x64 .f32).view

/-- The scoped buffers that are no staging buffer are the scratch, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Gen

end
-- ==== Proof.KRunA.lean ====
/-
  The kernel body run once, at the first grid point (the branch taken: the scratch is filled).

  On whole staging memrefs — each input's at its contents, the two outputs' at anything, the scratch at anything — the body
  runs to its end holding the inputs as they were, each output's buffer with the pieces its store wrote, and the scratch with the pieces its store wrote.
  The lists of pieces are found by the run itself.
-/
import proofs.«181588_g59639915872695_cont_sun_m_860_27_alg».proof.Proof.KBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i)
    (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) :
    Σ' (L13 : List (View.Piece (Elt F) S400x64 .f32)), Σ' (L14 : List (View.Piece (Elt F) S400x64 .f32)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0)) -∗ K ⟨⟩))
          ⊢ wp frame (wpE (defs₀ (F := F)) Variants.none c none) E (cc0__vgae_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__vgae_body_eq_skeleton]; unfold cc0__vgae_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    iexists _; iexact HS0

end Cert.Kernel.Gen

end
-- ==== Proof.KRunB.lean ====
/-
  The kernel body run once, at a later grid point (the branch not taken: the scratch is read as the first point left it).

  On whole staging memrefs — each input's at its contents, the two outputs' at anything, the scratch at the contents it was handed — the body
  runs to its end holding the inputs as they were, each output's buffer with the pieces its store wrote, and the scratch as it was.
  The lists of pieces are found by the run itself.
-/
import proofs.«181588_g59639915872695_cont_sun_m_860_27_alg».proof.Proof.KRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i)
    (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) :
    Σ' (L13 : List (View.Piece (Elt F) S400x64 .f32)), { L14 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ owns (c : Thread nD τ) arg16 fullShare xs0) -∗ K ⟨⟩))
          ⊢ wp frame (wpE (defs₀ (F := F)) Variants.none c none) E (cc0__vgae_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__vgae_body_eq_skeleton]; unfold cc0__vgae_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    iexists _; isplitr; · ipureintro; exact harg16.read_unread _
    iexact HS0

end Cert.Kernel.Gen

end
-- ==== Proof.KFrame.lean ====
/-
  The frame run of the word-level kernel.

  What each output's staging buffer and the scratch hold after the body at each of the 25 grid points: at the first
  point the body fills the scratch and both output blocks; at every later point it reads the scratch as the first point
  left it and fills both output blocks. With that as proof data — the two windows on the adjacency matrix each holding
  half of the array's share — the body obligation holds at every point, and the library's launch theorem for windows
  that share an array gives the run: every weakly fair execution of @main terminates, the argument arrays end as they
  were, and each output array ends at its entry contents overwritten block by block by what the body left.
-/
import proofs.«181588_g59639915872695_cont_sun_m_860_27_alg».proof.Proof.KRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_13 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (y : S400x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1 S400x64.size (by sl_kernel_rfl) y
def out0_A_13 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) : Vec F S400x64 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1)
theorem cover0_A_14 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (y : S400x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1 S400x64.size (by sl_kernel_rfl) y
def out0_A_14 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) : Vec F S400x64 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1)
theorem scover0_A_0 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (y : S10000x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.2.1 S10000x128.size (by sl_kernel_rfl) y
def sout0_A_0 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) : Vec F S10000x128 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.2.1)

theorem cover0_B_13 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) (y : S400x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).1 S400x64.size (by sl_kernel_rfl) y
def out0_B_13 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) : Vec F S400x64 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).1)
theorem cover0_B_14 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) (y : S400x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).2.1 S400x64.size (by sl_kernel_rfl) y
def out0_B_14 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) : Vec F S400x64 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).2.1)

/-! ## What the outputs and the scratch hold after each point -/

/-- After the body at position `n`: the two output blocks and the scratch. At the first point the branch is taken;
    afterwards the scratch is what the point before left. -/
def outsAt0 (c : Dev nD) : (n : ℕ) → n < cfg0.N → Vec F S400x64 .f32 × Vec F S400x64 .f32 × Vec F S10000x128 .bf16
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩),
      out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn => (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2,
      out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2,
      (outsAt0 c n (Nat.lt_of_succ_lt hn)).2.2)

theorem outsAt0_A (c : Dev nD) (t : Fin cfg0.N) (h0 : t.val = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t),
      out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2,
      out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2,
      (outsAt0 m c (t.val - 1) (Nat.lt_of_le_of_lt (Nat.sub_le _ _) t.isLt)).2.2) := by
  obtain ⟨n, hn⟩ := t
  cases n with
  | zero => exact absurd rfl h0
  | succ n => exact rfl

/-- The region's invariant before position `n`: before the first point the scratch at anything; afterwards the scratch
    at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM0_0 fullShare ((outsAt0 m c n hn).2.2) := rfl
theorem PhiS_pos (c : Dev nD) (n : ℕ) (h : n ≤ cfg0.N) (hz : n ≠ 0) :
    PhiS m c n h = owns (c : Thread nD τ) scM0_0 fullShare ((outsAt0 m c (n - 1) (by omega)).2.2) := by
  cases n with
  | zero => exact absurd rfl hz
  | succ n => rfl

/-! ## The proof data -/

/-- The arrays as the region finds them; after the body each input's buffer at its block and each output's at
    `outsAt0`; the adjacency matrix's share dealt in halves to its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  by_cases h0 : t.val = 0
  · rw [outsAt0_A m c t h0]
    unfold out0_A_13 out0_A_14 sout0_A_0; (try dsimp only)
    rw [PhiS_castSucc m c t, PhiS_zero m c _ _ h0, scopedRest0_owns]
    iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    iintro ⟨H0, H1, H2, H3, H4, H5, H6, H7, H8, H9, H10, H11, H12, ⟨%e13, H13⟩, ⟨%e14, H14⟩, ⟨%es0, HS0⟩⟩
    isplitl [HS0]
    · unfold owns; iexists _; isplitr
      swap; · iexact HS0
      ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _)
  · rw [outsAt0_B m c t h0]
    unfold out0_B_13 out0_B_14; (try dsimp only)
    rw [PhiS_castSucc m c t, PhiS_pos m c _ _ h0]
    iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    iintro ⟨H0, H1, H2, H3, H4, H5, H6, H7, H8, H9, H10, H11, H12, ⟨%e13, H13⟩, ⟨%e14, H14⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest0_owns]
  iintro HS0
  iexists _; iexact HS0

end Cert.Kernel.Gen

end
-- ==== Proof.KMain.lean ====
/-
  The word-level kernel's run and its frame.

  The buffers behind the windows' arrays, each whole at the full share when the region is entered, are dealt to the
  fifteen windows — the adjacency matrix's share split in two halves for its two windows — and the library's launch
  theorem for windows that share an array gives the run and, from it, the frame.
-/
import proofs.«181588_g59639915872695_cont_sun_m_860_27_alg».proof.Proof.KFrame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' buffers dealt among the windows -/

theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1) ∗ (((c : Thread nD τ).loc main_arg2) ↦{fullShare} V' main_arg2) ∗ (((c : Thread nD τ).loc main_v0) ↦{fullShare} V' main_v0) ∗ (((c : Thread nD τ).loc main_arg4) ↦{fullShare} V' main_arg4) ∗ (((c : Thread nD τ).loc main_v1) ↦{fullShare} V' main_v1) ∗ (((c : Thread nD τ).loc main_arg6) ↦{fullShare} V' main_arg6) ∗ (((c : Thread nD τ).loc main_v2) ↦{fullShare} V' main_v2) ∗ (((c : Thread nD τ).loc main_arg8) ↦{fullShare} V' main_arg8) ∗ (((c : Thread nD τ).loc main_v3) ↦{fullShare} V' main_v3) ∗ (((c : Thread nD τ).loc main_arg10) ↦{fullShare} V' main_arg10) ∗ (((c : Thread nD τ).loc main_v4) ↦{fullShare} V' main_v4) ∗ (((c : Thread nD τ).loc main_v5_0) ↦{fullShare} V' main_v5_0) ∗ (((c : Thread nD τ).loc main_v5_1) ↦{fullShare} V' main_v5_1)) := by
  unfold Pipeline.arrBufs; exact bigSep_eq_bigSepL_of_eq [main_arg0, main_arg1, main_arg2, main_v0, main_arg4, main_v1, main_arg6, main_v2, main_arg8, main_v3, main_arg10, main_v4, main_v5_0, main_v5_1] (by decide) (by decide) _

/-- A window's array, whole, at the region's entry contents: the points-to of the buffer behind it. -/
theorem arrays_w (c : Dev nD) (w : Fin cfg0.W) :
    (((cfg0.win w).arr.view.loc (c.tc : Thread nD τ)) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ, show (dats m 0 c).arrAt w 0 = V m c (Pipeline.arrRef spec0 w) from A_eq m c w]

theorem share_0 (c : Dev nD) : (dats m 0 c).share 0 = fullShare := by
  unfold Dat.share; rw [if_neg (by decide)]; dsimp only [dats]
theorem share_1 (c : Dev nD) : (dats m 0 c).share 1 = fullShare.left := by
  unfold Dat.share; rw [if_neg (by decide)]; dsimp only [dats]
theorem share_2 (c : Dev nD) : (dats m 0 c).share 2 = fullShare.right := by
  unfold Dat.share; rw [if_neg (by decide)]; dsimp only [dats]
theorem share_3 (c : Dev nD) : (dats m 0 c).share 3 = fullShare := by
  unfold Dat.share; rw [if_neg (by decide)]; dsimp only [dats]
theorem share_4 (c : Dev nD) : (dats m 0 c).share 4 = fullShare := by
  unfold Dat.share; rw [if_neg (by decide)]; dsimp only [dats]
theorem share_5 (c : Dev nD) : (dats m 0 c).share 5 = fullShare := by
  unfold Dat.share; rw [if_neg (by decide)]; dsimp only [dats]
theorem share_6 (c : Dev nD) : (dats m 0 c).share 6 = fullShare := by
  unfold Dat.share; rw [if_neg (by decide)]; dsimp only [dats]
theorem share_7 (c : Dev nD) : (dats m 0 c).share 7 = fullShare := by
  unfold Dat.share; rw [if_neg (by decide)]; dsimp only [dats]
theorem share_8 (c : Dev nD) : (dats m 0 c).share 8 = fullShare := by
  unfold Dat.share; rw [if_neg (by decide)]; dsimp only [dats]
theorem share_9 (c : Dev nD) : (dats m 0 c).share 9 = fullShare := by
  unfold Dat.share; rw [if_neg (by decide)]; dsimp only [dats]
theorem share_10 (c : Dev nD) : (dats m 0 c).share 10 = fullShare := by
  unfold Dat.share; rw [if_neg (by decide)]; dsimp only [dats]
theorem share_11 (c : Dev nD) : (dats m 0 c).share 11 = fullShare := by
  unfold Dat.share; rw [if_neg (by decide)]; dsimp only [dats]
theorem share_12 (c : Dev nD) : (dats m 0 c).share 12 = fullShare := by
  unfold Dat.share; rw [if_neg (by decide)]; dsimp only [dats]
theorem share_13 (c : Dev nD) : (dats m 0 c).share 13 = fullShare := by
  unfold Dat.share; rw [if_pos (by decide)]
theorem share_14 (c : Dev nD) : (dats m 0 c).share 14 = fullShare := by
  unfold Dat.share; rw [if_pos (by decide)]

set_option maxHeartbeats 8000000 in
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  rw [arrays_w m c 0, arrays_w m c 1, arrays_w m c 2, arrays_w m c 3, arrays_w m c 4, arrays_w m c 5, arrays_w m c 6, arrays_w m c 7, arrays_w m c 8, arrays_w m c 9, arrays_w m c 10, arrays_w m c 11, arrays_w m c 12, arrays_w m c 13, arrays_w m c 14]
  rw [share_0 m c, share_1 m c, share_2 m c, share_3 m c, share_4 m c, share_5 m c, share_6 m c, share_7 m c, share_8 m c, share_9 m c, share_10 m c, share_11 m c, share_12 m c, share_13 m c, share_14 m c]
  iintro ⟨H0, H1, H3, H4, H5, H6, H7, H8, H9, H10, H11, H12, H13, H14⟩
  ihave H1 := (pointsTo_share (PosShare.mem_left_op_right fullShare)).1 $$ H1
  icases H1 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_shared_track cfgs (dats m) (0 : Fin 1) defs₀ Variants.none cellOf_inj winFacts₀0 block_pos0 arr_whole0 stage_whole0 m ρ main
    (hbody := fun c => (body_obligation m c).loose) (howed := fun _ _ => rfl) (V := V m)
    (hmain := hmain m Variants.none) (hsplit := hsplit m) (hin := hin m) (hout := hout m)

/-- In a final state of the run the twelve argument arrays are as they were launched: a window's array by the proof
    data (an input array is never written), a bias vector — which no window stages — because it bypasses the region. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats m 0 c).arrAt_in 0 rfl _).trans ((A_eq m c 0).trans (V_arg m c main_arg0 (by decide)))),
    ((h c).1 1).trans (((dats m 0 c).arrAt_in 1 rfl _).trans ((A_eq m c 1).trans (V_arg m c main_arg1 (by decide)))),
    ((h c).1 3).trans (((dats m 0 c).arrAt_in 3 rfl _).trans ((A_eq m c 3).trans (V_arg m c main_arg2 (by decide)))),
    ((h c).2 main_arg3 (by decide)).trans (V_arg m c main_arg3 (by decide)),
    ((h c).1 5).trans (((dats m 0 c).arrAt_in 5 rfl _).trans ((A_eq m c 5).trans (V_arg m c main_arg4 (by decide)))),
    ((h c).2 main_arg5 (by decide)).trans (V_arg m c main_arg5 (by decide)),
    ((h c).1 7).trans (((dats m 0 c).arrAt_in 7 rfl _).trans ((A_eq m c 7).trans (V_arg m c main_arg6 (by decide)))),
    ((h c).2 main_arg7 (by decide)).trans (V_arg m c main_arg7 (by decide)),
    ((h c).1 9).trans (((dats m 0 c).arrAt_in 9 rfl _).trans ((A_eq m c 9).trans (V_arg m c main_arg8 (by decide)))),
    ((h c).2 main_arg9 (by decide)).trans (V_arg m c main_arg9 (by decide)),
    ((h c).1 11).trans (((dats m 0 c).arrAt_in 11 rfl _).trans ((A_eq m c 11).trans (V_arg m c main_arg10 (by decide)))),
    ((h c).2 main_arg11 (by decide)).trans (V_arg m c main_arg11 (by decide))⟩

/-- Every weakly fair execution of @main terminates without a fault and leaves the twelve argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_kept m r h c) (run_main m ρ)

end Cert.Kernel.Gen

end
-- ==== Proof.KIBase.lean ====
/-
  The idealized kernel's region: what its frame run is stated over.

  @main reshapes the five bias vectors into rows and then enters one pipelined region of 25 points. The region has
  thirteen input windows — the feature matrix, TWO windows on the adjacency matrix (the even and the odd 200-row
  blocks of one array), the weights and the bias rows — and two output windows of 400 rows each, and the body keeps
  the projected features in a scratch buffer it fills at the first point only. Here: the arrays as the region finds
  them, each window's block at a point, that an input's staging buffer holds its block at every point, the one
  branch condition in closed form, and the names the body's runs use.
-/
import proofs.«181588_g59639915872695_cont_sun_m_860_27_alg».proof.Proof.Gen.KernelIdeal.Launch
import proofs.«181588_g59639915872695_cont_sun_m_860_27_alg».proof.Proof.Gen.KernelIdeal.Skeleton
import proofs.«181588_g59639915872695_cont_sun_m_860_27_alg».proof.Proof.Gen.KernelIdeal.Points
import proofs.«181588_g59639915872695_cont_sun_m_860_27_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the five reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reshape writes its own result only: every argument array is found as launched. -/
theorem V_arg (c : Dev nD) (b : Ref sig .tc)
    (hb : b ≠ main_v0 ∧ b ≠ main_v1 ∧ b ≠ main_v2 ∧ b ≠ main_v3 ∧ b ≠ main_v4) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2.1, StableHlo.devRef_ne_of_ne hb.2.2.2.2⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body fills its scratch under this condition on the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## No window is ever idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel

/-! ## The memrefs the body is called with -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S400x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S400x64 .f32 := win0_14.stage (cfg0.slots t 14)
abbrev hs0_14 (t : Fin cfg0.N) : (ms0_14 t).IsWhole := hstage0_14 ((cfg0.slots t 14).cast nbuf0_14)
/-- The scratch: a whole scoped buffer of the kernel's own. -/
abbrev scM0_0 : Memref sig .tc .vmem S10000x128 .bf16 := Memref.whole cc0_scratch0
abbrev VS0_0 : View sig .tc .vmem S10000x128 .bf16 := scM0_0.view
/-- One staging buffer of each output window, through which its contents are stated. -/
abbrev VO0_13 : View sig .tc .vmem S400x64 .f32 := (Memref.whole cc0_stg13_0 : Memref sig .tc .vmem S400x64 .f32).view
abbrev VO0_14 : View sig .tc .vmem S400x64 .f32 := (Memref.whole cc0_stg14_0 : Memref sig .tc .vmem S400x64 .f32).view

/-- The scoped buffers that are no staging buffer are the scratch, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Gen

end
-- ==== Proof.KIRunA.lean ====
/-
  The kernel body run once, at the first grid point (the branch taken: the scratch is filled).

  On whole staging memrefs — each input's at its contents, the two outputs' at anything, the scratch at anything — the body
  runs to its end holding the inputs as they were, each output's buffer with the pieces its store wrote, and the scratch with the pieces its store wrote.
  The lists of pieces are found by the run itself.
-/
import proofs.«181588_g59639915872695_cont_sun_m_860_27_alg».proof.Proof.KIBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i)
    (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) :
    Σ' (L13 : List (View.Piece (Elt F) S400x64 .f32)), Σ' (L14 : List (View.Piece (Elt F) S400x64 .f32)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0)) -∗ K ⟨⟩))
          ⊢ wp frame (wpE (defs₀ (F := F)) Variants.none c none) E (cc0__vgae_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__vgae_body_eq_skeleton]; unfold cc0__vgae_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    iexists _; iexact HS0

end Cert.KernelIdeal.Gen

end
-- ==== Proof.KIRunB.lean ====
/-
  The kernel body run once, at a later grid point (the branch not taken: the scratch is read as the first point left it).

  On whole staging memrefs — each input's at its contents, the two outputs' at anything, the scratch at the contents it was handed — the body
  runs to its end holding the inputs as they were, each output's buffer with the pieces its store wrote, and the scratch as it was.
  The lists of pieces are found by the run itself.
-/
import proofs.«181588_g59639915872695_cont_sun_m_860_27_alg».proof.Proof.KIRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i)
    (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) :
    Σ' (L13 : List (View.Piece (Elt F) S400x64 .f32)), { L14 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ owns (c : Thread nD τ) arg16 fullShare xs0) -∗ K ⟨⟩))
          ⊢ wp frame (wpE (defs₀ (F := F)) Variants.none c none) E (cc0__vgae_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__vgae_body_eq_skeleton]; unfold cc0__vgae_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    iexists _; isplitr; · ipureintro; exact harg16.read_unread _
    iexact HS0

end Cert.KernelIdeal.Gen

end
-- ==== Proof.KIFrame.lean ====
/-
  The frame run of the idealized kernel.

  What each output's staging buffer and the scratch hold after the body at each of the 25 grid points: at the first
  point the body fills the scratch and both output blocks; at every later point it reads the scratch as the first point
  left it and fills both output blocks. With that as proof data — the two windows on the adjacency matrix each holding
  half of the array's share — the body obligation holds at every point, and the library's launch theorem for windows
  that share an array gives the run: every weakly fair execution of @main terminates, the argument arrays end as they
  were, and each output array ends at its entry contents overwritten block by block by what the body left.
-/
import proofs.«181588_g59639915872695_cont_sun_m_860_27_alg».proof.Proof.KIRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_13 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (y : S400x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1 S400x64.size (by sl_kernel_rfl) y
def out0_A_13 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) : Vec F S400x64 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1)
theorem cover0_A_14 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (y : S400x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1 S400x64.size (by sl_kernel_rfl) y
def out0_A_14 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) : Vec F S400x64 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1)
theorem scover0_A_0 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (y : S10000x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.2.1 S10000x128.size (by sl_kernel_rfl) y
def sout0_A_0 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) : Vec F S10000x128 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.2.1)

theorem cover0_B_13 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) (y : S400x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).1 S400x64.size (by sl_kernel_rfl) y
def out0_B_13 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) : Vec F S400x64 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).1)
theorem cover0_B_14 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) (y : S400x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).2.1 S400x64.size (by sl_kernel_rfl) y
def out0_B_14 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) : Vec F S400x64 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0).2.1)

/-! ## What the outputs and the scratch hold after each point -/

/-- After the body at position `n`: the two output blocks and the scratch. At the first point the branch is taken;
    afterwards the scratch is what the point before left. -/
def outsAt0 (c : Dev nD) : (n : ℕ) → n < cfg0.N → Vec F S400x64 .f32 × Vec F S400x64 .f32 × Vec F S10000x128 .bf16
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩),
      out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn => (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2,
      out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2,
      (outsAt0 c n (Nat.lt_of_succ_lt hn)).2.2)

theorem outsAt0_A (c : Dev nD) (t : Fin cfg0.N) (h0 : t.val = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t),
      out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2,
      out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2,
      (outsAt0 m c (t.val - 1) (Nat.lt_of_le_of_lt (Nat.sub_le _ _) t.isLt)).2.2) := by
  obtain ⟨n, hn⟩ := t
  cases n with
  | zero => exact absurd rfl h0
  | succ n => exact rfl

/-- The region's invariant before position `n`: before the first point the scratch at anything; afterwards the scratch
    at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM0_0 fullShare ((outsAt0 m c n hn).2.2) := rfl
theorem PhiS_pos (c : Dev nD) (n : ℕ) (h : n ≤ cfg0.N) (hz : n ≠ 0) :
    PhiS m c n h = owns (c : Thread nD τ) scM0_0 fullShare ((outsAt0 m c (n - 1) (by omega)).2.2) := by
  cases n with
  | zero => exact absurd rfl hz
  | succ n => rfl

/-! ## The proof data -/

/-- The arrays as the region finds them; after the body each input's buffer at its block and each output's at
    `outsAt0`; the adjacency matrix's share dealt in halves to its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  by_cases h0 : t.val = 0
  · rw [outsAt0_A m c t h0]
    unfold out0_A_13 out0_A_14 sout0_A_0; (try dsimp only)
    rw [PhiS_castSucc m c t, PhiS_zero m c _ _ h0, scopedRest0_owns]
    iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    iintro ⟨H0, H1, H2, H3, H4, H5, H6, H7, H8, H9, H10, H11, H12, ⟨%e13, H13⟩, ⟨%e14, H14⟩, ⟨%es0, HS0⟩⟩
    isplitl [HS0]
    · unfold owns; iexists _; isplitr
      swap; · iexact HS0
      ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _)
  · rw [outsAt0_B m c t h0]
    unfold out0_B_13 out0_B_14; (try dsimp only)
    rw [PhiS_castSucc m c t, PhiS_pos m c _ _ h0]
    iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    iintro ⟨H0, H1, H2, H3, H4, H5, H6, H7, H8, H9, H10, H11, H12, ⟨%e13, H13⟩, ⟨%e14, H14⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest0_owns]
  iintro HS0
  iexists _; iexact HS0

end Cert.KernelIdeal.Gen

end
-- ==== Proof.KIMain.lean ====
/-
  The idealized kernel's run and its frame.

  The buffers behind the windows' arrays, each whole at the full share when the region is entered, are dealt to the
  fifteen windows — the adjacency matrix's share split in two halves for its two windows — and the library's launch
  theorem for windows that share an array gives the run and, from it, the frame.
-/
import proofs.«181588_g59639915872695_cont_sun_m_860_27_alg».proof.Proof.KIFrame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' buffers dealt among the windows -/

theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1) ∗ (((c : Thread nD τ).loc main_arg2) ↦{fullShare} V' main_arg2) ∗ (((c : Thread nD τ).loc main_v0) ↦{fullShare} V' main_v0) ∗ (((c : Thread nD τ).loc main_arg4) ↦{fullShare} V' main_arg4) ∗ (((c : Thread nD τ).loc main_v1) ↦{fullShare} V' main_v1) ∗ (((c : Thread nD τ).loc main_arg6) ↦{fullShare} V' main_arg6) ∗ (((c : Thread nD τ).loc main_v2) ↦{fullShare} V' main_v2) ∗ (((c : Thread nD τ).loc main_arg8) ↦{fullShare} V' main_arg8) ∗ (((c : Thread nD τ).loc main_v3) ↦{fullShare} V' main_v3) ∗ (((c : Thread nD τ).loc main_arg10) ↦{fullShare} V' main_arg10) ∗ (((c : Thread nD τ).loc main_v4) ↦{fullShare} V' main_v4) ∗ (((c : Thread nD τ).loc main_v5_0) ↦{fullShare} V' main_v5_0) ∗ (((c : Thread nD τ).loc main_v5_1) ↦{fullShare} V' main_v5_1)) := by
  unfold Pipeline.arrBufs; exact bigSep_eq_bigSepL_of_eq [main_arg0, main_arg1, main_arg2, main_v0, main_arg4, main_v1, main_arg6, main_v2, main_arg8, main_v3, main_arg10, main_v4, main_v5_0, main_v5_1] (by decide) (by decide) _

/-- A window's array, whole, at the region's entry contents: the points-to of the buffer behind it. -/
theorem arrays_w (c : Dev nD) (w : Fin cfg0.W) :
    (((cfg0.win w).arr.view.loc (c.tc : Thread nD τ)) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ, show (dats m 0 c).arrAt w 0 = V m c (Pipeline.arrRef spec0 w) from A_eq m c w]

theorem share_0 (c : Dev nD) : (dats m 0 c).share 0 = fullShare := by
  unfold Dat.share; rw [if_neg (by decide)]; dsimp only [dats]
theorem share_1 (c : Dev nD) : (dats m 0 c).share 1 = fullShare.left := by
  unfold Dat.share; rw [if_neg (by decide)]; dsimp only [dats]
theorem share_2 (c : Dev nD) : (dats m 0 c).share 2 = fullShare.right := by
  unfold Dat.share; rw [if_neg (by decide)]; dsimp only [dats]
theorem share_3 (c : Dev nD) : (dats m 0 c).share 3 = fullShare := by
  unfold Dat.share; rw [if_neg (by decide)]; dsimp only [dats]
theorem share_4 (c : Dev nD) : (dats m 0 c).share 4 = fullShare := by
  unfold Dat.share; rw [if_neg (by decide)]; dsimp only [dats]
theorem share_5 (c : Dev nD) : (dats m 0 c).share 5 = fullShare := by
  unfold Dat.share; rw [if_neg (by decide)]; dsimp only [dats]
theorem share_6 (c : Dev nD) : (dats m 0 c).share 6 = fullShare := by
  unfold Dat.share; rw [if_neg (by decide)]; dsimp only [dats]
theorem share_7 (c : Dev nD) : (dats m 0 c).share 7 = fullShare := by
  unfold Dat.share; rw [if_neg (by decide)]; dsimp only [dats]
theorem share_8 (c : Dev nD) : (dats m 0 c).share 8 = fullShare := by
  unfold Dat.share; rw [if_neg (by decide)]; dsimp only [dats]
theorem share_9 (c : Dev nD) : (dats m 0 c).share 9 = fullShare := by
  unfold Dat.share; rw [if_neg (by decide)]; dsimp only [dats]
theorem share_10 (c : Dev nD) : (dats m 0 c).share 10 = fullShare := by
  unfold Dat.share; rw [if_neg (by decide)]; dsimp only [dats]
theorem share_11 (c : Dev nD) : (dats m 0 c).share 11 = fullShare := by
  unfold Dat.share; rw [if_neg (by decide)]; dsimp only [dats]
theorem share_12 (c : Dev nD) : (dats m 0 c).share 12 = fullShare := by
  unfold Dat.share; rw [if_neg (by decide)]; dsimp only [dats]
theorem share_13 (c : Dev nD) : (dats m 0 c).share 13 = fullShare := by
  unfold Dat.share; rw [if_pos (by decide)]
theorem share_14 (c : Dev nD) : (dats m 0 c).share 14 = fullShare := by
  unfold Dat.share; rw [if_pos (by decide)]

set_option maxHeartbeats 8000000 in
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  rw [arrays_w m c 0, arrays_w m c 1, arrays_w m c 2, arrays_w m c 3, arrays_w m c 4, arrays_w m c 5, arrays_w m c 6, arrays_w m c 7, arrays_w m c 8, arrays_w m c 9, arrays_w m c 10, arrays_w m c 11, arrays_w m c 12, arrays_w m c 13, arrays_w m c 14]
  rw [share_0 m c, share_1 m c, share_2 m c, share_3 m c, share_4 m c, share_5 m c, share_6 m c, share_7 m c, share_8 m c, share_9 m c, share_10 m c, share_11 m c, share_12 m c, share_13 m c, share_14 m c]
  iintro ⟨H0, H1, H3, H4, H5, H6, H7, H8, H9, H10, H11, H12, H13, H14⟩
  ihave H1 := (pointsTo_share (PosShare.mem_left_op_right fullShare)).1 $$ H1
  icases H1 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_shared_track cfgs (dats m) (0 : Fin 1) defs₀ Variants.none cellOf_inj winFacts₀0 block_pos0 arr_whole0 stage_whole0 m ρ main
    (hbody := fun c => (body_obligation m c).loose) (howed := fun _ _ => rfl) (V := V m)
    (hmain := hmain m Variants.none) (hsplit := hsplit m) (hin := hin m) (hout := hout m)

/-- In a final state of the run the twelve argument arrays are as they were launched: a window's array by the proof
    data (an input array is never written), a bias vector — which no window stages — because it bypasses the region. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats m 0 c).arrAt_in 0 rfl _).trans ((A_eq m c 0).trans (V_arg m c main_arg0 (by decide)))),
    ((h c).1 1).trans (((dats m 0 c).arrAt_in 1 rfl _).trans ((A_eq m c 1).trans (V_arg m c main_arg1 (by decide)))),
    ((h c).1 3).trans (((dats m 0 c).arrAt_in 3 rfl _).trans ((A_eq m c 3).trans (V_arg m c main_arg2 (by decide)))),
    ((h c).2 main_arg3 (by decide)).trans (V_arg m c main_arg3 (by decide)),
    ((h c).1 5).trans (((dats m 0 c).arrAt_in 5 rfl _).trans ((A_eq m c 5).trans (V_arg m c main_arg4 (by decide)))),
    ((h c).2 main_arg5 (by decide)).trans (V_arg m c main_arg5 (by decide)),
    ((h c).1 7).trans (((dats m 0 c).arrAt_in 7 rfl _).trans ((A_eq m c 7).trans (V_arg m c main_arg6 (by decide)))),
    ((h c).2 main_arg7 (by decide)).trans (V_arg m c main_arg7 (by decide)),
    ((h c).1 9).trans (((dats m 0 c).arrAt_in 9 rfl _).trans ((A_eq m c 9).trans (V_arg m c main_arg8 (by decide)))),
    ((h c).2 main_arg9 (by decide)).trans (V_arg m c main_arg9 (by decide)),
    ((h c).1 11).trans (((dats m 0 c).arrAt_in 11 rfl _).trans ((A_eq m c 11).trans (V_arg m c main_arg10 (by decide)))),
    ((h c).2 main_arg11 (by decide)).trans (V_arg m c main_arg11 (by decide))⟩

/-- Every weakly fair execution of @main terminates without a fault and leaves the twelve argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_kept m r h c) (run_main m ρ)

end Cert.KernelIdeal.Gen

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.KIBlocks.lean ====
/-
  The region's windows read at an index.

  Eleven of the thirteen input windows hold a whole array — the feature matrix, the weights, the bias rows —: their
  one block, at block index (0, 0) at every point, is the array. The two windows on the adjacency matrix hold its
  200-row blocks 2t and 2t + 1 at point t: rows 400t + r and 400t + 200 + r. The bias rows are the bias vectors cast
  to one-row matrices: entry (0, a) is entry a. Each of the two output windows holds 400 rows at point t, rows
  400t + r of its [10000, 64] array, and the 25 points' blocks cover the array: row i₀ lies in point i₀ / 400's block.
-/
import proofs.«181588_g59639915872695_cont_sun_m_860_27_alg».proof.Proof.KIBase
import proofs.«181588_g59639915872695_cont_sun_m_860_27_alg».proof.Proof.LibLreluRows
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]
variable (m : (ℓ : Loc nD τ sig) → Buf (Elt F) ℓ)

/-! ## The windows' block indices, decided over the 25 points -/

theorem idx0 : ∀ t : Fin cfg0.N, win0_0.index t (0 : Fin 2) = 0 ∧ win0_0.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx1 : ∀ t : Fin cfg0.N, win0_1.index t (0 : Fin 2) = 2 * t.val ∧ win0_1.index t (1 : Fin 2) = 0 :=
  (by decide +kernel : ∀ t : Fin grid0.N, _)
theorem idx2 : ∀ t : Fin cfg0.N, win0_2.index t (0 : Fin 2) = 2 * t.val + 1 ∧ win0_2.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)

/-! ## The whole-array windows: the block is the array -/

/-- Window 0 (the feature matrix): its block at every point is the array as the region finds it. -/
theorem iblk_0 (c : Dev nD) (t : Fin cfg0.N) : (iblk m c 0 t : S10000x128.Idx → Elt F .f32) = V m c main_arg0 := by
  funext j
  unfold iblk
  rw [View.read_apply]
  show V m c main_arg0 _ = V m c main_arg0 j
  congr 1
  funext a; apply Fin.ext
  match a with
  | ⟨0, _⟩ => show win0_0.index t (0 : Fin 2) * 10000 + 1 * (j 0).val = (j 0).val; rw [(idx0 t).1]; omega
  | ⟨1, _⟩ => show win0_0.index t (1 : Fin 2) * 128 + 1 * (j 1).val = (j 1).val; rw [(idx0 t).2]; omega

/-- Window 3 (the first layer's weights): its block at every point is the array as the region finds it. -/
theorem iblk_3 (c : Dev nD) (t : Fin cfg0.N) : (iblk m c 3 t : S128x128.Idx → Elt F .f32) = V m c main_arg2 := by
  funext j
  unfold iblk
  rw [View.read_apply]
  show V m c main_arg2 _ = V m c main_arg2 j
  congr 1
  funext a; apply Fin.ext
  match a with
  | ⟨0, _⟩ => show win0_3.index t (0 : Fin 2) * 128 + 1 * (j 0).val = (j 0).val; rw [(idx3 t).1]; omega
  | ⟨1, _⟩ => show win0_3.index t (1 : Fin 2) * 128 + 1 * (j 1).val = (j 1).val; rw [(idx3 t).2]; omega

/-- Window 4 (the first layer's bias row): its block at every point is the array as the region finds it. -/
theorem iblk_4 (c : Dev nD) (t : Fin cfg0.N) : (iblk m c 4 t : S1x128.Idx → Elt F .f32) = V m c main_v0 := by
  funext j
  unfold iblk
  rw [View.read_apply]
  show V m c main_v0 _ = V m c main_v0 j
  congr 1
  funext a; apply Fin.ext
  match a with
  | ⟨0, _⟩ => show win0_4.index t (0 : Fin 2) * 1 + 1 * (j 0).val = (j 0).val; rw [(idx4 t).1]; omega
  | ⟨1, _⟩ => show win0_4.index t (1 : Fin 2) * 128 + 1 * (j 1).val = (j 1).val; rw [(idx4 t).2]; omega

/-- Window 5 (the mean head's first weights): its block at every point is the array as the region finds it. -/
theorem iblk_5 (c : Dev nD) (t : Fin cfg0.N) : (iblk m c 5 t : S64x128.Idx → Elt F .f32) = V m c main_arg4 := by
  funext j
  unfold iblk
  rw [View.read_apply]
  show V m c main_arg4 _ = V m c main_arg4 j
  congr 1
  funext a; apply Fin.ext
  match a with
  | ⟨0, _⟩ => show win0_5.index t (0 : Fin 2) * 64 + 1 * (j 0).val = (j 0).val; rw [(idx5 t).1]; omega
  | ⟨1, _⟩ => show win0_5.index t (1 : Fin 2) * 128 + 1 * (j 1).val = (j 1).val; rw [(idx5 t).2]; omega

/-- Window 6 (the mean head's first bias row): its block at every point is the array as the region finds it. -/
theorem iblk_6 (c : Dev nD) (t : Fin cfg0.N) : (iblk m c 6 t : S1x64.Idx → Elt F .f32) = V m c main_v1 := by
  funext j
  unfold iblk
  rw [View.read_apply]
  show V m c main_v1 _ = V m c main_v1 j
  congr 1
  funext a; apply Fin.ext
  match a with
  | ⟨0, _⟩ => show win0_6.index t (0 : Fin 2) * 1 + 1 * (j 0).val = (j 0).val; rw [(idx6 t).1]; omega
  | ⟨1, _⟩ => show win0_6.index t (1 : Fin 2) * 64 + 1 * (j 1).val = (j 1).val; rw [(idx6 t).2]; omega

/-- Window 7 (the mean head's second weights): its block at every point is the array as the region finds it. -/
theorem iblk_7 (c : Dev nD) (t : Fin cfg0.N) : (iblk m c 7 t : S64x64.Idx → Elt F .f32) = V m c main_arg6 := by
  funext j
  unfold iblk
  rw [View.read_apply]
  show V m c main_arg6 _ = V m c main_arg6 j
  congr 1
  funext a; apply Fin.ext
  match a with
  | ⟨0, _⟩ => show win0_7.index t (0 : Fin 2) * 64 + 1 * (j 0).val = (j 0).val; rw [(idx7 t).1]; omega
  | ⟨1, _⟩ => show win0_7.index t (1 : Fin 2) * 64 + 1 * (j 1).val = (j 1).val; rw [(idx7 t).2]; omega

/-- Window 8 (the mean head's second bias row): its block at every point is the array as the region finds it. -/
theorem iblk_8 (c : Dev nD) (t : Fin cfg0.N) : (iblk m c 8 t : S1x64.Idx → Elt F .f32) = V m c main_v2 := by
  funext j
  unfold iblk
  rw [View.read_apply]
  show V m c main_v2 _ = V m c main_v2 j
  congr 1
  funext a; apply Fin.ext
  match a with
  | ⟨0, _⟩ => show win0_8.index t (0 : Fin 2) * 1 + 1 * (j 0).val = (j 0).val; rw [(idx8 t).1]; omega
  | ⟨1, _⟩ => show win0_8.index t (1 : Fin 2) * 64 + 1 * (j 1).val = (j 1).val; rw [(idx8 t).2]; omega

/-- Window 9 (the deviation head's first weights): its block at every point is the array as the region finds it. -/
theorem iblk_9 (c : Dev nD) (t : Fin cfg0.N) : (iblk m c 9 t : S64x128.Idx → Elt F .f32) = V m c main_arg8 := by
  funext j
  unfold iblk
  rw [View.read_apply]
  show V m c main_arg8 _ = V m c main_arg8 j
  congr 1
  funext a; apply Fin.ext
  match a with
  | ⟨0, _⟩ => show win0_9.index t (0 : Fin 2) * 64 + 1 * (j 0).val = (j 0).val; rw [(idx9 t).1]; omega
  | ⟨1, _⟩ => show win0_9.index t (1 : Fin 2) * 128 + 1 * (j 1).val = (j 1).val; rw [(idx9 t).2]; omega

/-- Window 10 (the deviation head's first bias row): its block at every point is the array as the region finds it. -/
theorem iblk_10 (c : Dev nD) (t : Fin cfg0.N) : (iblk m c 10 t : S1x64.Idx → Elt F .f32) = V m c main_v3 := by
  funext j
  unfold iblk
  rw [View.read_apply]
  show V m c main_v3 _ = V m c main_v3 j
  congr 1
  funext a; apply Fin.ext
  match a with
  | ⟨0, _⟩ => show win0_10.index t (0 : Fin 2) * 1 + 1 * (j 0).val = (j 0).val; rw [(idx10 t).1]; omega
  | ⟨1, _⟩ => show win0_10.index t (1 : Fin 2) * 64 + 1 * (j 1).val = (j 1).val; rw [(idx10 t).2]; omega

/-- Window 11 (the deviation head's second weights): its block at every point is the array as the region finds it. -/
theorem iblk_11 (c : Dev nD) (t : Fin cfg0.N) : (iblk m c 11 t : S64x64.Idx → Elt F .f32) = V m c main_arg10 := by
  funext j
  unfold iblk
  rw [View.read_apply]
  show V m c main_arg10 _ = V m c main_arg10 j
  congr 1
  funext a; apply Fin.ext
  match a with
  | ⟨0, _⟩ => show win0_11.index t (0 : Fin 2) * 64 + 1 * (j 0).val = (j 0).val; rw [(idx11 t).1]; omega
  | ⟨1, _⟩ => show win0_11.index t (1 : Fin 2) * 64 + 1 * (j 1).val = (j 1).val; rw [(idx11 t).2]; omega

/-- Window 12 (the deviation head's second bias row): its block at every point is the array as the region finds it. -/
theorem iblk_12 (c : Dev nD) (t : Fin cfg0.N) : (iblk m c 12 t : S1x64.Idx → Elt F .f32) = V m c main_v4 := by
  funext j
  unfold iblk
  rw [View.read_apply]
  show V m c main_v4 _ = V m c main_v4 j
  congr 1
  funext a; apply Fin.ext
  match a with
  | ⟨0, _⟩ => show win0_12.index t (0 : Fin 2) * 1 + 1 * (j 0).val = (j 0).val; rw [(idx12 t).1]; omega
  | ⟨1, _⟩ => show win0_12.index t (1 : Fin 2) * 64 + 1 * (j 1).val = (j 1).val; rw [(idx12 t).2]; omega

/-! ## The two windows on the adjacency matrix -/

/-- Window 1 at point t holds the adjacency matrix's 200-row block 2t: rows 400t + r. -/
theorem iblk_1 (c : Dev nD) (t : Fin cfg0.N) (r : Fin 200) (k : Fin 10000) :
    iblk m c 1 t (ix2 r k)
      = V m c main_arg1 (ix2 ⟨400 * t.val + r.val, by have := t.isLt; have hN : cfg0.N = 25 := N_0; omega⟩ k) := by
  unfold iblk
  rw [View.read_apply]
  show V m c main_arg1 _ = V m c main_arg1 _
  congr 1
  funext a; apply Fin.ext
  match a with
  | ⟨0, _⟩ => show win0_1.index t (0 : Fin 2) * 200 + 1 * r.val = 400 * t.val + r.val; rw [(idx1 t).1]; omega
  | ⟨1, _⟩ => show win0_1.index t (1 : Fin 2) * 10000 + 1 * k.val = k.val; rw [(idx1 t).2]; omega

/-- Window 2 at point t holds the adjacency matrix's 200-row block 2t + 1: rows 400t + 200 + r. -/
theorem iblk_2 (c : Dev nD) (t : Fin cfg0.N) (r : Fin 200) (k : Fin 10000) :
    iblk m c 2 t (ix2 r k)
      = V m c main_arg1 (ix2 ⟨400 * t.val + 200 + r.val, by have := t.isLt; have hN : cfg0.N = 25 := N_0; omega⟩ k) := by
  unfold iblk
  rw [View.read_apply]
  show V m c main_arg1 _ = V m c main_arg1 _
  congr 1
  funext a; apply Fin.ext
  match a with
  | ⟨0, _⟩ => show win0_2.index t (0 : Fin 2) * 200 + 1 * r.val = 400 * t.val + 200 + r.val; rw [(idx2 t).1]; omega
  | ⟨1, _⟩ => show win0_2.index t (1 : Fin 2) * 10000 + 1 * k.val = k.val; rw [(idx2 t).2]; omega

/-! ## The bias rows: the bias vectors cast to one-row matrices -/

/-- The row the region finds in main_v0 is the vector main_arg3 was launched with: entry (0, a) is entry a. -/
theorem Vrow_0 (c : Dev nD) (a : Fin 128) :
    V m c main_v0 (ix2 (0 : Fin 1) a) = m ((c : Thread nD τ).loc main_arg3) (ix1 a) := by
  have e : (V m c main_v0 : S1x128.Idx → Elt F .f32)
      = shapeCast S1x128 (m ((c : Thread nD τ).loc main_arg3) : S128.Idx → Elt F .f32) shapeCasts_S128_S1x128 := by
    dsimp only [V, hostOps0]
    after_results
    rfl
  rw [e]
  exact Cert.LibLreluRows.rowCast_apply shapeCasts_S128_S1x128 _ a

/-- The row the region finds in main_v1 is the vector main_arg5 was launched with: entry (0, a) is entry a. -/
theorem Vrow_1 (c : Dev nD) (a : Fin 64) :
    V m c main_v1 (ix2 (0 : Fin 1) a) = m ((c : Thread nD τ).loc main_arg5) (ix1 a) := by
  have e : (V m c main_v1 : S1x64.Idx → Elt F .f32)
      = shapeCast S1x64 (m ((c : Thread nD τ).loc main_arg5) : S64.Idx → Elt F .f32) shapeCasts_S64_S1x64 := by
    dsimp only [V, hostOps0]
    after_results
    rfl
  rw [e]
  exact Cert.LibLreluRows.rowCast_apply shapeCasts_S64_S1x64 _ a

/-- The row the region finds in main_v2 is the vector main_arg7 was launched with: entry (0, a) is entry a. -/
theorem Vrow_2 (c : Dev nD) (a : Fin 64) :
    V m c main_v2 (ix2 (0 : Fin 1) a) = m ((c : Thread nD τ).loc main_arg7) (ix1 a) := by
  have e : (V m c main_v2 : S1x64.Idx → Elt F .f32)
      = shapeCast S1x64 (m ((c : Thread nD τ).loc main_arg7) : S64.Idx → Elt F .f32) shapeCasts_S64_S1x64 := by
    dsimp only [V, hostOps0]
    after_results
    rfl
  rw [e]
  exact Cert.LibLreluRows.rowCast_apply shapeCasts_S64_S1x64 _ a

/-- The row the region finds in main_v3 is the vector main_arg9 was launched with: entry (0, a) is entry a. -/
theorem Vrow_3 (c : Dev nD) (a : Fin 64) :
    V m c main_v3 (ix2 (0 : Fin 1) a) = m ((c : Thread nD τ).loc main_arg9) (ix1 a) := by
  have e : (V m c main_v3 : S1x64.Idx → Elt F .f32)
      = shapeCast S1x64 (m ((c : Thread nD τ).loc main_arg9) : S64.Idx → Elt F .f32) shapeCasts_S64_S1x64 := by
    dsimp only [V, hostOps0]
    after_results
    rfl
  rw [e]
  exact Cert.LibLreluRows.rowCast_apply shapeCasts_S64_S1x64 _ a

/-- The row the region finds in main_v4 is the vector main_arg11 was launched with: entry (0, a) is entry a. -/
theorem Vrow_4 (c : Dev nD) (a : Fin 64) :
    V m c main_v4 (ix2 (0 : Fin 1) a) = m ((c : Thread nD τ).loc main_arg11) (ix1 a) := by
  have e : (V m c main_v4 : S1x64.Idx → Elt F .f32)
      = shapeCast S1x64 (m ((c : Thread nD τ).loc main_arg11) : S64.Idx → Elt F .f32) shapeCasts_S64_S1x64 := by
    dsimp only [V, hostOps0]
    after_results
    rfl
  rw [e]
  exact Cert.LibLreluRows.rowCast_apply shapeCasts_S64_S1x64 _ a

/-! ## The output windows: 400 rows at a point, and the 25 points cover the array -/

/-- Output window 13's block at point t, read off contents G of its array: rows 400t + r. -/
theorem read_blk_13 {c : Dev nD} (t : Fin cfg0.N) (G : Buf (Elt F) ((c : Thread nD τ).loc main_v5_0)) (r : Fin 400) (e : Fin 64) :
    ((cfg0.win 13).blk t).view.read (Elt F) G (ix2 r e)
      = G (ix2 ⟨400 * t.val + r.val, by have := t.isLt; have hN : cfg0.N = 25 := N_0; omega⟩ e) := by
  rw [View.read_apply]
  show G _ = G _
  congr 1
  funext a; apply Fin.ext
  match a with
  | ⟨0, _⟩ => show win0_13.index t (0 : Fin 2) * 400 + 1 * r.val = 400 * t.val + r.val; rw [(idx13 t).1]; omega
  | ⟨1, _⟩ => show win0_13.index t (1 : Fin 2) * 64 + 1 * e.val = e.val; rw [(idx13 t).2]; omega

/-- Every entry of output window 13's array is in some point's block — row i₀ in point i₀ / 400's — and every point writes its block back. -/
theorem cover_13 (c : Dev nD) : ∀ i : (((cfg0.win 13).arr.view.loc (c.tc : Thread nD τ)).2.ty.Idx),
    ∃ t : Fin cfg0.N, (cfg0.win 13).flush t = true ∧ i ∈ ((cfg0.win 13).blk t).view.set := by
  intro i
  have hN : cfg0.N = 25 := N_0
  have h0 : (i 0 : Nat) < 10000 := (i 0).isLt
  have h1 : (i 1 : Nat) < 64 := (i 1).isLt
  have ht : (i 0 : Nat) / 400 < cfg0.N := by omega
  refine ⟨⟨(i 0 : Nat) / 400, ht⟩, flush0_13 _, ?_⟩
  show i ∈ ((View.whole main_v5_0).slice (win0_13.rect ⟨(i 0 : Nat) / 400, ht⟩)).set
  rw [View.set_slice_whole, Rect.mem_set_unit]
  intro a
  match a with
  | ⟨0, _⟩ =>
    show win0_13.index ⟨(i 0 : Nat) / 400, ht⟩ (0 : Fin 2) * 400 ≤ (i 0 : Nat)
      ∧ (i 0 : Nat) < win0_13.index ⟨(i 0 : Nat) / 400, ht⟩ (0 : Fin 2) * 400 + 400
    rw [(idx13 ⟨(i 0 : Nat) / 400, ht⟩).1]
    show (i 0 : Nat) / 400 * 400 ≤ (i 0 : Nat) ∧ (i 0 : Nat) < (i 0 : Nat) / 400 * 400 + 400
    omega
  | ⟨1, _⟩ =>
    show win0_13.index ⟨(i 0 : Nat) / 400, ht⟩ (1 : Fin 2) * 64 ≤ (i 1 : Nat)
      ∧ (i 1 : Nat) < win0_13.index ⟨(i 0 : Nat) / 400, ht⟩ (1 : Fin 2) * 64 + 64
    rw [(idx13 ⟨(i 0 : Nat) / 400, ht⟩).2]
    omega

/-- Output window 14's block at point t, read off contents G of its array: rows 400t + r. -/
theorem read_blk_14 {c : Dev nD} (t : Fin cfg0.N) (G : Buf (Elt F) ((c : Thread nD τ).loc main_v5_1)) (r : Fin 400) (e : Fin 64) :
    ((cfg0.win 14).blk t).view.read (Elt F) G (ix2 r e)
      = G (ix2 ⟨400 * t.val + r.val, by have := t.isLt; have hN : cfg0.N = 25 := N_0; omega⟩ e) := by
  rw [View.read_apply]
  show G _ = G _
  congr 1
  funext a; apply Fin.ext
  match a with
  | ⟨0, _⟩ => show win0_14.index t (0 : Fin 2) * 400 + 1 * r.val = 400 * t.val + r.val; rw [(idx14 t).1]; omega
  | ⟨1, _⟩ => show win0_14.index t (1 : Fin 2) * 64 + 1 * e.val = e.val; rw [(idx14 t).2]; omega

/-- Every entry of output window 14's array is in some point's block — row i₀ in point i₀ / 400's — and every point writes its block back. -/
theorem cover_14 (c : Dev nD) : ∀ i : (((cfg0.win 14).arr.view.loc (c.tc : Thread nD τ)).2.ty.Idx),
    ∃ t : Fin cfg0.N, (cfg0.win 14).flush t = true ∧ i ∈ ((cfg0.win 14).blk t).view.set := by
  intro i
  have hN : cfg0.N = 25 := N_0
  have h0 : (i 0 : Nat) < 10000 := (i 0).isLt
  have h1 : (i 1 : Nat) < 64 := (i 1).isLt
  have ht : (i 0 : Nat) / 400 < cfg0.N := by omega
  refine ⟨⟨(i 0 : Nat) / 400, ht⟩, flush0_14 _, ?_⟩
  show i ∈ ((View.whole main_v5_1).slice (win0_14.rect ⟨(i 0 : Nat) / 400, ht⟩)).set
  rw [View.set_slice_whole, Rect.mem_set_unit]
  intro a
  match a with
  | ⟨0, _⟩ =>
    show win0_14.index ⟨(i 0 : Nat) / 400, ht⟩ (0 : Fin 2) * 400 ≤ (i 0 : Nat)
      ∧ (i 0 : Nat) < win0_14.index ⟨(i 0 : Nat) / 400, ht⟩ (0 : Fin 2) * 400 + 400
    rw [(idx14 ⟨(i 0 : Nat) / 400, ht⟩).1]
    show (i 0 : Nat) / 400 * 400 ≤ (i 0 : Nat) ∧ (i 0 : Nat) < (i 0 : Nat) / 400 * 400 + 400
    omega
  | ⟨1, _⟩ =>
    show win0_14.index ⟨(i 0 : Nat) / 400, ht⟩ (1 : Fin 2) * 64 ≤ (i 1 : Nat)
      ∧ (i 1 : Nat) < win0_14.index ⟨(i 0 : Nat) / 400, ht⟩ (1 : Fin 2) * 64 + 64
    rw [(idx14 ⟨(i 0 : Nat) / 400, ht⟩).2]
    omega

end Cert.KernelIdeal.Blocks

end
-- ==== Proof.Spec.lean ====
/-
  The encoder as one function of its twelve argument arrays, on the extended reals.

  A graph-convolution layer followed by two small perceptron heads:
    xw     = x · W1ᵀ + b1                      (10000 × 128)
    hidden = max (adj · xw) 0                   (10000 × 128)
    mean   = max (hidden · Wm1ᵀ + bm1) 0 · Wm2ᵀ + bm2          (10000 × 64)
    std    = softplus (max (hidden · Ws1ᵀ + bs1) 0 · Ws2ᵀ + bs2) (10000 × 64)
  Matrices are curried functions of their two coordinates and bias vectors functions of one, so that the same
  definitions read a whole array and a block of its rows: every stage after `xw` is computed row by row.
-/
import Idealize.ShloMosaic.PureOps.Ideal

noncomputable section

open scoped BigOperators

namespace Cert.Vgae

open Idealize.ShloMosaic

/-- Rows of `l` against rows of `r`, plus a bias along the columns: entry (p, q) is ∑ⱼ l p j · r q j + b q. -/
def affT {m k n : Nat} (l : Fin m → Fin k → EReal) (r : Fin n → Fin k → EReal) (b : Fin n → EReal)
    (p : Fin m) (q : Fin n) : EReal := (∑ j : Fin k, l p j * r q j) + b q

/-- The plain matrix product: entry (p, q) is ∑ⱼ l p j · r j q. -/
def mm {m k n : Nat} (l : Fin m → Fin k → EReal) (r : Fin k → Fin n → EReal) (p : Fin m) (q : Fin n) : EReal :=
  ∑ j : Fin k, l p j * r j q

/-- The positive part, entry by entry. -/
def relu {m n : Nat} (f : Fin m → Fin n → EReal) (p : Fin m) (q : Fin n) : EReal := max (f p q) 0

/-- log (1 + eᶻ) in its overflow-free spelling max z 0 + log1p (exp (−|z|)), with |z| = max z (−z). -/
def softplus (z : EReal) : EReal := max z 0 + Ideal.log1p (Ideal.exp (-(max z (-z))))

/-- The graph-convolution layer on the rows `adj` holds: max (adj · xw) 0. -/
def hidden {m : Nat} (adj : Fin m → Fin 10000 → EReal) (xw : Fin 10000 → Fin 128 → EReal) :
    Fin m → Fin 128 → EReal := relu (mm adj xw)

/-- One perceptron head on the rows of `h`: max (h · Waᵀ + ba) 0 · Wbᵀ + bb. -/
def head {m : Nat} (h : Fin m → Fin 128 → EReal) (Wa : Fin 64 → Fin 128 → EReal) (ba : Fin 64 → EReal)
    (Wb : Fin 64 → Fin 64 → EReal) (bb : Fin 64 → EReal) : Fin m → Fin 64 → EReal :=
  affT (relu (affT h Wa ba)) Wb bb

/-- The projected features x · W1ᵀ + b1. -/
def proj (x : Fin 10000 → Fin 128 → EReal) (W1 : Fin 128 → Fin 128 → EReal) (b1 : Fin 128 → EReal) :
    Fin 10000 → Fin 128 → EReal := affT x W1 b1

/-- The mean head of the whole encoder. -/
def meanOf (x : Fin 10000 → Fin 128 → EReal) (adj : Fin 10000 → Fin 10000 → EReal) (W1 : Fin 128 → Fin 128 → EReal)
    (b1 : Fin 128 → EReal) (Wm1 : Fin 64 → Fin 128 → EReal) (bm1 : Fin 64 → EReal) (Wm2 : Fin 64 → Fin 64 → EReal)
    (bm2 : Fin 64 → EReal) : Fin 10000 → Fin 64 → EReal :=
  head (hidden adj (proj x W1 b1)) Wm1 bm1 Wm2 bm2

/-- The deviation head of the whole encoder: the softplus of the second head. -/
def stdOf (x : Fin 10000 → Fin 128 → EReal) (adj : Fin 10000 → Fin 10000 → EReal) (W1 : Fin 128 → Fin 128 → EReal)
    (b1 : Fin 128 → EReal) (Ws1 : Fin 64 → Fin 128 → EReal) (bs1 : Fin 64 → EReal) (Ws2 : Fin 64 → Fin 64 → EReal)
    (bs2 : Fin 64 → EReal) (p : Fin 10000) (q : Fin 64) : EReal :=
  softplus (head (hidden adj (proj x W1 b1)) Ws1 bs1 Ws2 bs2 p q)

/-- The layer is computed row by row: on a stretch of `adj`'s rows it is the same stretch of the whole layer. -/
theorem hidden_rows {m : Nat} (adj : Fin 10000 → Fin 10000 → EReal) (xw : Fin 10000 → Fin 128 → EReal)
    (ι : Fin m → Fin 10000) (p : Fin m) (q : Fin 128) :
    hidden (fun r => adj (ι r)) xw p q = hidden adj xw (ι p) q := rfl

/-- So is a head. -/
theorem head_rows {m : Nat} (h : Fin 10000 → Fin 128 → EReal) (Wa : Fin 64 → Fin 128 → EReal) (ba : Fin 64 → EReal)
    (Wb : Fin 64 → Fin 64 → EReal) (bb : Fin 64 → EReal) (ι : Fin m → Fin 10000) (p : Fin m) (q : Fin 64) :
    head (fun r => h (ι r)) Wa ba Wb bb p q = head h Wa ba Wb bb (ι p) q := rfl

end Cert.Vgae

end
-- ==== Proof.LibRowsContract.lean ====
/-
  A product of rows read at one entry.

  For the dimension numbers of an [M, K] by [N, K] product that contracts the second axis of both operands (no batch
  axis) — every row of the left operand against every row of the right one — the sum over the contraction index that the
  exact product takes at result entry (p, q) is the sum over k < K of l[p, k] · r[q, k]. Stated for the sum itself, for a
  matrix unit's product into a zero accumulator, and for a host dot product, at the exact (extended real) reading of floats.
-/
import Idealize.ShloMosaic.PureOps.Ideal.Laws
import Idealize.ShloMosaic.Lib.ValueIdx

noncomputable section

namespace Cert.LibRowsContract

open Idealize.ShloMosaic Idealize.ShloMosaic.ValueIdx

/-- The dimension numbers of a product of rows: [M, K] with [N, K], both second axes contracted. -/
abbrev rowsDims (M K N : Nat) (h : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := h

variable (M K N : Nat) (h : DotDims.WF ⟨2, ![M, K]⟩ ⟨2, ![N, K]⟩ ⟨2, ![M, N]⟩ [1] [1] [0] [0] [] [])

/-- The contraction index has one axis, of extent K. -/
theorem rows_rank : (rowsDims M K N h).contr.rank = 1 := rfl
theorem rows_size : (rowsDims M K N h).contr.size ⟨0, Nat.one_pos⟩ = K := rfl

/-- At result entry (p, q) and contraction position k the left operand is read at (p, k) … -/
theorem rows_lhsIdx (p : Fin M) (q : Fin N) (k : Fin K) :
    (rowsDims M K N h).lhsIdx (ix2 p q) ((contrEquiv1 (rowsDims M K N h) K rfl rfl).symm k) = ix2 p k :=
  funext fun a => Fin.ext (by
    have hk := contrEquiv1_symm_val (rowsDims M K N h) K rfl rfl k
    match a with
    | ⟨0, _⟩ => rfl
    | ⟨1, _⟩ => exact ((rowsDims M K N h).lhsIdx_val_of_single rfl _ _).trans hk)

/-- … and the right operand at (q, k). -/
theorem rows_rhsIdx (p : Fin M) (q : Fin N) (k : Fin K) :
    (rowsDims M K N h).rhsIdx (ix2 p q) ((contrEquiv1 (rowsDims M K N h) K rfl rfl).symm k) = ix2 q k :=
  funext fun a => Fin.ext (by
    have hk := contrEquiv1_symm_val (rowsDims M K N h) K rfl rfl k
    match a with
    | ⟨0, _⟩ => rfl
    | ⟨1, _⟩ => exact ((rowsDims M K N h).rhsIdx_val_of_single rfl _ _).trans hk)

/-- The contraction sum at entry (p, q) is the sum over k of l[p, k] · r[q, k]. -/
theorem rows_sum (l : (⟨2, ![M, K]⟩ : Shape).Idx → EReal) (r : (⟨2, ![N, K]⟩ : Shape).Idx → EReal)
    (p : Fin M) (q : Fin N) :
    ∑ k : (rowsDims M K N h).contr.Idx,
        l ((rowsDims M K N h).lhsIdx (ix2 p q) k) * r ((rowsDims M K N h).rhsIdx (ix2 p q) k)
      = ∑ k : Fin K, l (ix2 p k) * r (ix2 q k) := by
  rw [← Equiv.sum_comp (contrEquiv1 (rowsDims M K N h) K rfl rfl).symm]
  refine Finset.sum_congr rfl fun k _ => ?_
  rw [rows_lhsIdx, rows_rhsIdx]

/-- A matrix unit's product of rows into the zero accumulator, at entry (p, q). -/
theorem matmul_rows_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (rowsDims M K N h) prec l r (constant ⟨2, ![M, N]⟩ .f32 0x00000000#32) (ix2 p q)
      = ∑ k : Fin K, l (ix2 p k) * r (ix2 q k) :=
  (Ideal.matmul_constant_zero_apply (rowsDims M K N h) prec l r (ix2 p q)).trans (rows_sum M K N h l r p q)

/-- A host dot product of rows, at entry (p, q). -/
theorem dotGeneral_rows_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (rowsDims M K N h) prec sched l r (ix2 p q) = ∑ k : Fin K, l (ix2 p k) * r (ix2 q k) :=
  (Ideal.dotGeneral_apply (rowsDims M K N h) prec sched l r (ix2 p q)).trans (rows_sum M K N h l r p q)

end Cert.LibRowsContract

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Pay.lean ====
/-
  The four arithmetic terms of the encoder's body, each read at one entry, as the specification's functions of the
  values the body loads.

  With a matrix read as a function of its two coordinates (cur) and a one-row matrix as a function of its column
  (row0):
    the projected features   ∑ⱼ x[k, j] · W1[c, j] + b1[c]                       (proj; its narrowing to a shorter format
                                                                                  and its casts to its own shape change
                                                                                  no exact value),
    the layer on 400 rows    max (∑ₖ adj[r, k] · xw[k, c]) 0, the 400 rows being two stretches of 200 laid one
                             after the other                                     (hidden),
    the mean head            max (h · Waᵀ + ba) 0 · Wbᵀ + bb                      (head),
    the deviation head       the softplus of the second head, in the spelling
                             select (d ≠ d) (z + 0) (max z 0 + log1p (exp (0 − |d|))) with d = z − 0: a value is never
                             unequal to itself, z − 0 = z and 0 − a = −a          (softplus ∘ head).
  Every product of rows is a matrix unit's product into the zero accumulator; the bias is a one-row matrix laid down
  the rows.
-/
import proofs.«181588_g59639915872695_cont_sun_m_860_27_alg».proof.Proof.Gen.KernelIdeal.Skeleton
import proofs.«181588_g59639915872695_cont_sun_m_860_27_alg».proof.Proof.Spec
import proofs.«181588_g59639915872695_cont_sun_m_860_27_alg».proof.Proof.LibRowsContract
import proofs.«181588_g59639915872695_cont_sun_m_860_27_alg».proof.Proof.LibPlainContract
import proofs.«181588_g59639915872695_cont_sun_m_860_27_alg».proof.Proof.LibLreluRows
import Idealize.ShloMosaic.Lib.ValueIdx
import Idealize.ShloMosaic.PureOps.Ideal.Laws
import Idealize.ShloMosaic.Lib.Pipeline.Value
import Idealize.ShloMosaic.Lib.ValueLayout

set_option synthInstance.maxSize 4096

noncomputable section

open scoped BigOperators

namespace Cert.KernelIdeal.PayValue

open Idealize.ShloMosaic Idealize.SL.Sem Idealize.ShloMosaic.ValueIdx
open Cert.KernelIdeal Cert.KernelIdeal.Gen
open Cert.LibRowsContract Cert.LibPlainContract Cert.LibLreluRows
open Cert.Vgae

/-- A matrix as a function of its two coordinates. -/
abbrev cur {m n : Nat} (A : (⟨2, ![m, n]⟩ : Shape).Idx → EReal) : Fin m → Fin n → EReal := fun a b => A (ix2 a b)
/-- A one-row matrix as a function of its column. -/
abbrev row0 {n : Nat} (v : (⟨2, ![1, n]⟩ : Shape).Idx → EReal) : Fin n → EReal := fun a => v (ix2 (0 : Fin 1) a)

/-- Rows against rows into the zero accumulator, plus a one-row bias laid down the rows: entry (p, q). -/
theorem affRows_apply (M K N : Nat) (h : DotDims.WF ⟨2, ![M, K]⟩ ⟨2, ![N, K]⟩ ⟨2, ![M, N]⟩ [1] [1] [0] [0] [] [])
    (hs : (⟨2, ![1, N]⟩ : Shape).ShapeCasts ⟨2, ![1, N]⟩) (hb : (⟨2, ![1, N]⟩ : Shape).Broadcasts ⟨2, ![M, N]⟩)
    (l : FVec Ideal ⟨2, ![M, K]⟩ .f32) (r : FVec Ideal ⟨2, ![N, K]⟩ .f32) (b : FVec Ideal ⟨2, ![1, N]⟩ .f32)
    (p : Fin M) (q : Fin N) :
    addf (matmul (rowsDims M K N h) none l r (constant ⟨2, ![M, N]⟩ .f32 0x00000000#32))
        (broadcastTo ⟨2, ![M, N]⟩ (shapeCast ⟨2, ![1, N]⟩ b hs) hb) (ix2 p q)
      = affT (cur l) (cur r) (row0 b) p q :=
  congrArg₂ (· + ·) (matmul_rows_apply M K N h none l r p q) (rowDown_apply hs hb b p q)

/-- The projected features at entry (k, c): rows of x against rows of W1, plus b1 along the columns. -/
theorem pay2_apply (v58 : Vec Ideal S10000x128 .f32) (v59 : Vec Ideal S128x128 .f32) (v61 : Vec Ideal S1x128 .f32)
    (k : Fin 10000) (c : Fin 128) :
    k0_pay2 (F := Ideal) v58 v59 v61 (ix2 k c) = proj (cur v58) (cur v59) (row0 v61) k c := by
  unfold k0_pay2
  refine (congrFun (shapeCast_self _ _) _).trans ?_
  exact affRows_apply 10000 128 128 dot_S10000x128_S128x128_S10000x128_1_1_0_0_n_n_wf _ _ v58 v59 v61 k c

/-- The layer on the 400 adjacency rows a grid point holds — two stretches of 200 rows, each multiplied into the same
    projected features, laid one after the other — at entry (r, c). -/
theorem pay3_apply (v3 v7 : Vec Ideal S200x10000 .f32) (v5 v9 : Vec Ideal S10000x128 .bf16) (h : v9 = v5)
    (r : Fin 400) (c : Fin 128) :
    k0_pay3 (F := Ideal) v3 v5 v7 v9 (ix2 r c)
      = hidden (fun (r : Fin 400) k => if h : r.val < 200 then v3 (ix2 ⟨r.val, h⟩ k)
          else v7 (ix2 ⟨r.val - 200, by omega⟩ k)) (cur v5) r c := by
  subst h
  unfold k0_pay3
  show max (concatenate S400x128 0 [⟨S200x128, _⟩, ⟨S200x128, _⟩] _ (ix2 r c)) (Ideal.ofBits .f32 0x00000000#32) = max _ 0
  rw [Ideal.ofBits_zero_f32]
  refine congrArg (max · 0) ?_
  by_cases hr : r.val < 200
  · refine (concatenate_pair_apply_left (t := S400x128) (s₁ := S200x128) (s₂ := S200x128) 0 _ _ _ (ix2 r c) rfl (ix2 ⟨r.val, hr⟩ c) (fun b => by
      match b with
      | ⟨0, _⟩ => rfl
      | ⟨1, _⟩ => rfl)).trans ?_
    refine (matmul_plain_apply 200 10000 128 (φ₁ := .bf16) (φ₂ := .bf16) none _ _ ⟨r.val, hr⟩ c).trans ?_
    refine Finset.sum_congr rfl fun k _ => ?_
    show v3 (ix2 ⟨r.val, hr⟩ k) * v9 (ix2 k c) = (if h : r.val < 200 then _ else _) * _
    rw [dif_pos hr]
  · refine (concatenate_pair_apply_right (t := S400x128) (s₁ := S200x128) (s₂ := S200x128) 0 _ _ _ (ix2 r c) rfl rfl (ix2 ⟨r.val - 200, by omega⟩ c) (fun b hb => by
      match b with
      | ⟨0, _⟩ => exact absurd rfl hb
      | ⟨1, _⟩ => rfl) (by show r.val - 200 + 200 = r.val; omega)).trans ?_
    refine (matmul_plain_apply 200 10000 128 (φ₁ := .bf16) (φ₂ := .bf16) none _ _ ⟨r.val - 200, by omega⟩ c).trans ?_
    refine Finset.sum_congr rfl fun k _ => ?_
    show v7 (ix2 ⟨r.val - 200, _⟩ k) * v9 (ix2 k c) = (if h : r.val < 200 then _ else _) * _
    rw [dif_neg hr]

/-- One perceptron head of the body, as the body spells it over its loads — rows of h against rows of Wa into the zero
    accumulator, plus the row ba laid down the rows, the positive part, the same against Wb with bb — read at entry
    (r, e): the specification's head there. -/
theorem headTerm_apply (h : FVec Ideal S400x128 .f32) (Wa : FVec Ideal S64x128 .f32) (ba : FVec Ideal S1x64 .f32)
    (Wb : FVec Ideal S64x64 .f32) (bb : FVec Ideal S1x64 .f32) (r : Fin 400) (e : Fin 64) :
    addf (matmul dot_S400x64_S64x64_S400x64_1_1_0_0_n_n none
        (maximumf
          (addf (matmul dot_S400x128_S64x128_S400x64_1_1_0_0_n_n none h Wa (constant (F := Ideal) S400x64 .f32 0x00000000#32))
            (broadcastTo S400x64 (shapeCast S1x64 ba shapeCasts_S1x64_S1x64) broadcasts_S1x64_S400x64))
          (broadcast S400x64 (Scalar.ofBits (F := Ideal) .f32 0x00000000#32)))
        Wb (constant (F := Ideal) S400x64 .f32 0x00000000#32))
      (broadcastTo S400x64 (shapeCast S1x64 bb shapeCasts_S1x64_S1x64) broadcasts_S1x64_S400x64) (ix2 r e)
      = head (cur h) (cur Wa) (row0 ba) (cur Wb) (row0 bb) r e := by
  refine (affRows_apply 400 64 64 dot_S400x64_S64x64_S400x64_1_1_0_0_n_n_wf _ _ _ Wb bb r e).trans ?_
  refine congrArg (fun f => affT f (cur Wb) (row0 bb) r e) ?_
  funext a b
  show max (_ : EReal) (Ideal.ofBits .f32 0x00000000#32) = max _ 0
  rw [Ideal.ofBits_zero_f32]
  exact congrArg (max · 0) (affRows_apply 400 128 64 dot_S400x128_S64x128_S400x64_1_1_0_0_n_n_wf _ _ h Wa ba a b)

/-- The mean head on the 400 rows of the layer, at entry (r, e). -/
theorem pay4_apply (v3 : Vec Ideal S200x10000 .f32) (v5 : Vec Ideal S10000x128 .bf16) (v7 : Vec Ideal S200x10000 .f32)
    (v9 : Vec Ideal S10000x128 .bf16) (v14 : Vec Ideal S64x128 .f32) (v16 : Vec Ideal S1x64 .f32)
    (v22 : Vec Ideal S64x64 .f32) (v24 : Vec Ideal S1x64 .f32) (r : Fin 400) (e : Fin 64) :
    k0_pay4 (F := Ideal) v3 v5 v7 v9 v14 v16 v22 v24 (ix2 r e)
      = head (cur (k0_pay3 (F := Ideal) v3 v5 v7 v9)) (cur v14) (row0 v16) (cur v22) (row0 v24) r e := by
  unfold k0_pay4
  exact headTerm_apply (k0_pay3 (F := Ideal) v3 v5 v7 v9) v14 v16 v22 v24 r e

/-- The body's overflow-free softplus of a vector z, as it spells it — select (z − 0 ordered and unequal to itself)
    (z + 0) (max z 0 + log1p (exp (0 − |z − 0|))) — read at an index: a value is never unequal to itself, so the
    select takes its second branch, and z − 0 = z, 0 − a = −a. -/
theorem softTail_apply {s : Shape} (z : FVec Ideal s .f32) (i : s.Idx) :
    select (cmpf .one (subf z (broadcast s (Scalar.ofBits (F := Ideal) .f32 0x00000000#32)))
          (subf z (broadcast s (Scalar.ofBits (F := Ideal) .f32 0x00000000#32))))
        (addf z (broadcast s (Scalar.ofBits (F := Ideal) .f32 0x00000000#32)))
        (addf (maximumf z (broadcast s (Scalar.ofBits (F := Ideal) .f32 0x00000000#32)))
          (log1p (exp (subf (broadcast s (Scalar.ofBits (F := Ideal) .f32 0x00000000#32))
            (absf (subf z (broadcast s (Scalar.ofBits (F := Ideal) .f32 0x00000000#32)))))))) i
      = softplus (z i) := by
  show Scalar.select (Ideal.cmp .one (z i - Ideal.ofBits .f32 0x00000000#32) (z i - Ideal.ofBits .f32 0x00000000#32))
      (z i + Ideal.ofBits .f32 0x00000000#32)
      (max (z i) (Ideal.ofBits .f32 0x00000000#32) + Ideal.log1p (Ideal.exp (Ideal.ofBits .f32 0x00000000#32
        - max (z i - Ideal.ofBits .f32 0x00000000#32) (-(z i - Ideal.ofBits .f32 0x00000000#32))))) = softplus (z i)
  rw [Ideal.ofBits_zero_f32, sub_zero, zero_sub]
  have hc : Ideal.cmp .one (z i) (z i) = 0#1 := by simp [Ideal.cmp]
  rw [hc, select_zero]
  rfl

/-- The deviation head on 400 rows h of the layer, at entry (r, e): the softplus of the second head. -/
theorem pay1_apply (v13 : FVec Ideal S400x128 .f32) (v29 : Vec Ideal S64x128 .f32) (v31 : Vec Ideal S1x64 .f32)
    (v37 : Vec Ideal S64x64 .f32) (v39 : Vec Ideal S1x64 .f32) (r : Fin 400) (e : Fin 64) :
    k0_pay1 (F := Ideal) v13 v29 v31 v37 v39 (ix2 r e)
      = softplus (head (cur v13) (cur v29) (row0 v31) (cur v37) (row0 v39) r e) := by
  unfold k0_pay1
  exact (softTail_apply _ (ix2 r e)).trans (congrArg softplus (headTerm_apply v13 v29 v31 v37 v39 r e))

end Cert.KernelIdeal.PayValue

end
-- ==== Proof.KIRows.lean ====
/-
  A block of an output is 400 rows of the specification.

  At point t the body's two stored terms, over the blocks the windows hold there and the projected features the
  scratch holds, are rows 400t … 400t + 399 of the encoder's mean and deviation heads as functions of the twelve
  argument arrays: the two 200-row adjacency blocks laid one after the other are rows 400t + r of the adjacency
  matrix, the layer and the heads are computed row by row, the weights' windows hold the weights, and the bias rows
  hold the bias vectors.
-/
import proofs.«181588_g59639915872695_cont_sun_m_860_27_alg».proof.Proof.KIBlocks
import proofs.«181588_g59639915872695_cont_sun_m_860_27_alg».proof.Proof.Pay
import proofs.«181588_g59639915872695_cont_sun_m_860_27_alg».proof.Proof.Spec
import Idealize.ShloMosaic.Lib.ValueIdx

set_option maxRecDepth 16384

noncomputable section

namespace Cert.KernelIdeal.Rows

open Idealize.ShloMosaic Idealize.ShloMosaic.TcCoe
open Idealize.SL Idealize.SL.Sem
open Idealize.ShloMosaic.ValueIdx
open Cert.KernelIdeal Cert.KernelIdeal.Gen Cert.KernelIdeal.Blocks Cert.KernelIdeal.PayValue Cert.Vgae

variable (m : (ℓ : Loc nD τ sig) → Buf (Elt Ideal) ℓ)

/-- What the scratch holds after the first point: the projected features of the arrays the region finds. -/
def scr (c : Dev nD) : Vec Ideal S10000x128 .bf16 :=
  k0_pay2 (F := Ideal) (V m c main_arg0) (V m c main_arg2) (V m c main_v0)

/-- Row r of point t's 400 rows, as a row of the whole array. -/
abbrev rowOf (t : Fin cfg0.N) (r : Fin 400) : Fin 10000 :=
  ⟨400 * t.val + r.val, by have := t.isLt; have hN : cfg0.N = 25 := N_0; omega⟩

/-! ## The windows' arrays are the argument arrays -/

theorem cur_arg0 (c : Dev nD) : cur (V m c main_arg0 : FVec Ideal S10000x128 .f32) = (fun a b => (m ((c : Thread nD τ).loc main_arg0) : FVec Ideal S10000x128 .f32) (ix2 a b)) := by
  rw [V_arg m c main_arg0 (by decide)]
theorem cur_arg1 (c : Dev nD) : cur (V m c main_arg1 : FVec Ideal S10000x10000 .f32) = (fun a b => (m ((c : Thread nD τ).loc main_arg1) : FVec Ideal S10000x10000 .f32) (ix2 a b)) := by
  rw [V_arg m c main_arg1 (by decide)]
theorem cur_arg2 (c : Dev nD) : cur (V m c main_arg2 : FVec Ideal S128x128 .f32) = (fun a b => (m ((c : Thread nD τ).loc main_arg2) : FVec Ideal S128x128 .f32) (ix2 a b)) := by
  rw [V_arg m c main_arg2 (by decide)]
theorem cur_arg4 (c : Dev nD) : cur (V m c main_arg4 : FVec Ideal S64x128 .f32) = (fun a b => (m ((c : Thread nD τ).loc main_arg4) : FVec Ideal S64x128 .f32) (ix2 a b)) := by
  rw [V_arg m c main_arg4 (by decide)]
theorem cur_arg6 (c : Dev nD) : cur (V m c main_arg6 : FVec Ideal S64x64 .f32) = (fun a b => (m ((c : Thread nD τ).loc main_arg6) : FVec Ideal S64x64 .f32) (ix2 a b)) := by
  rw [V_arg m c main_arg6 (by decide)]
theorem cur_arg8 (c : Dev nD) : cur (V m c main_arg8 : FVec Ideal S64x128 .f32) = (fun a b => (m ((c : Thread nD τ).loc main_arg8) : FVec Ideal S64x128 .f32) (ix2 a b)) := by
  rw [V_arg m c main_arg8 (by decide)]
theorem cur_arg10 (c : Dev nD) : cur (V m c main_arg10 : FVec Ideal S64x64 .f32) = (fun a b => (m ((c : Thread nD τ).loc main_arg10) : FVec Ideal S64x64 .f32) (ix2 a b)) := by
  rw [V_arg m c main_arg10 (by decide)]

/-! ## The bias rows are the bias vectors -/

theorem row_v0 (c : Dev nD) : row0 (V m c main_v0 : FVec Ideal S1x128 .f32) = (fun a => (m ((c : Thread nD τ).loc main_arg3) : FVec Ideal S128 .f32) (ix1 a)) :=
  funext fun a => Vrow_0 m c a
theorem row_v1 (c : Dev nD) : row0 (V m c main_v1 : FVec Ideal S1x64 .f32) = (fun a => (m ((c : Thread nD τ).loc main_arg5) : FVec Ideal S64 .f32) (ix1 a)) :=
  funext fun a => Vrow_1 m c a
theorem row_v2 (c : Dev nD) : row0 (V m c main_v2 : FVec Ideal S1x64 .f32) = (fun a => (m ((c : Thread nD τ).loc main_arg7) : FVec Ideal S64 .f32) (ix1 a)) :=
  funext fun a => Vrow_2 m c a
theorem row_v3 (c : Dev nD) : row0 (V m c main_v3 : FVec Ideal S1x64 .f32) = (fun a => (m ((c : Thread nD τ).loc main_arg9) : FVec Ideal S64 .f32) (ix1 a)) :=
  funext fun a => Vrow_3 m c a
theorem row_v4 (c : Dev nD) : row0 (V m c main_v4 : FVec Ideal S1x64 .f32) = (fun a => (m ((c : Thread nD τ).loc main_arg11) : FVec Ideal S64 .f32) (ix1 a)) :=
  funext fun a => Vrow_4 m c a

/-! ## The scratch, the adjacency rows, the layer -/

/-- The scratch holds the projected features of the argument arrays. -/
theorem scr_cur (c : Dev nD) : cur (scr m c) = proj (fun a b => (m ((c : Thread nD τ).loc main_arg0) : FVec Ideal S10000x128 .f32) (ix2 a b)) (fun a b => (m ((c : Thread nD τ).loc main_arg2) : FVec Ideal S128x128 .f32) (ix2 a b)) (fun a => (m ((c : Thread nD τ).loc main_arg3) : FVec Ideal S128 .f32) (ix1 a)) := by
  have e : cur (scr m c) = proj (cur (V m c main_arg0 : FVec Ideal S10000x128 .f32))
      (cur (V m c main_arg2 : FVec Ideal S128x128 .f32)) (row0 (V m c main_v0 : FVec Ideal S1x128 .f32)) :=
    funext fun k => funext fun q => pay2_apply (V m c main_arg0) (V m c main_arg2) (V m c main_v0) k q
  rw [e, cur_arg0, cur_arg2, row_v0]

/-- The two 200-row blocks point t holds, laid one after the other, are rows 400t + r of the adjacency matrix. -/
theorem adj_rows (c : Dev nD) (t : Fin cfg0.N) :
    (fun (r : Fin 400) (k : Fin 10000) => if h : r.val < 200 then iblk m c 1 t (ix2 ⟨r.val, h⟩ k)
        else iblk m c 2 t (ix2 ⟨r.val - 200, by omega⟩ k))
      = fun r => (fun a b => (m ((c : Thread nD τ).loc main_arg1) : FVec Ideal S10000x10000 .f32) (ix2 a b)) (rowOf t r) := by
  funext r k
  have hN : cfg0.N = 25 := N_0
  have ht := t.isLt
  by_cases h : r.val < 200
  · rw [dif_pos h, iblk_1 m c t ⟨r.val, h⟩ k, V_arg m c main_arg1 (by decide)]
  · rw [dif_neg h, iblk_2 m c t ⟨r.val - 200, by omega⟩ k, V_arg m c main_arg1 (by decide)]
    refine congrArg (fun i : Fin 10000 => (m ((c : Thread nD τ).loc main_arg1) : FVec Ideal S10000x10000 .f32) (ix2 i k)) (Fin.ext ?_)
    show 400 * t.val + 200 + (r.val - 200) = 400 * t.val + r.val
    omega

/-- The layer on point t's rows is rows 400t + r of the layer on the whole adjacency matrix. -/
theorem hid_cur (c : Dev nD) (t : Fin cfg0.N) :
    cur (k0_pay3 (F := Ideal) (iblk m c 1 t) (scr m c) (iblk m c 2 t) (scr m c))
      = fun r => hidden (fun a b => (m ((c : Thread nD τ).loc main_arg1) : FVec Ideal S10000x10000 .f32) (ix2 a b)) (proj (fun a b => (m ((c : Thread nD τ).loc main_arg0) : FVec Ideal S10000x128 .f32) (ix2 a b)) (fun a b => (m ((c : Thread nD τ).loc main_arg2) : FVec Ideal S128x128 .f32) (ix2 a b)) (fun a => (m ((c : Thread nD τ).loc main_arg3) : FVec Ideal S128 .f32) (ix1 a))) (rowOf t r) := by
  funext r q
  refine (pay3_apply (iblk m c 1 t) (iblk m c 2 t) (scr m c) (scr m c) rfl r q).trans ?_
  rw [adj_rows m c t, scr_cur m c]
  rfl

/-! ## The two stored terms -/

theorem mean_rows (c : Dev nD) (t : Fin cfg0.N) (r : Fin 400) (e : Fin 64) :
    k0_pay4 (F := Ideal) (iblk m c 1 t) (scr m c) (iblk m c 2 t) (scr m c) (V m c main_arg4) (V m c main_v1)
        (V m c main_arg6) (V m c main_v2) (ix2 r e)
      = meanOf (fun a b => (m ((c : Thread nD τ).loc main_arg0) : FVec Ideal S10000x128 .f32) (ix2 a b)) (fun a b => (m ((c : Thread nD τ).loc main_arg1) : FVec Ideal S10000x10000 .f32) (ix2 a b)) (fun a b => (m ((c : Thread nD τ).loc main_arg2) : FVec Ideal S128x128 .f32) (ix2 a b)) (fun a => (m ((c : Thread nD τ).loc main_arg3) : FVec Ideal S128 .f32) (ix1 a))
          (fun a b => (m ((c : Thread nD τ).loc main_arg4) : FVec Ideal S64x128 .f32) (ix2 a b)) (fun a => (m ((c : Thread nD τ).loc main_arg5) : FVec Ideal S64 .f32) (ix1 a)) (fun a b => (m ((c : Thread nD τ).loc main_arg6) : FVec Ideal S64x64 .f32) (ix2 a b)) (fun a => (m ((c : Thread nD τ).loc main_arg7) : FVec Ideal S64 .f32) (ix1 a))
          (⟨400 * t.val + r.val, by have := t.isLt; have hN : cfg0.N = 25 := N_0; omega⟩ : Fin 10000) e := by
  refine (pay4_apply (iblk m c 1 t) (scr m c) (iblk m c 2 t) (scr m c) (V m c main_arg4) (V m c main_v1)
    (V m c main_arg6) (V m c main_v2) r e).trans ?_
  rw [hid_cur m c t, cur_arg4, row_v1, cur_arg6, row_v2]
  rfl

theorem std_rows (c : Dev nD) (t : Fin cfg0.N) (r : Fin 400) (e : Fin 64) :
    k0_pay1 (F := Ideal) (k0_pay3 (F := Ideal) (iblk m c 1 t) (scr m c) (iblk m c 2 t) (scr m c)) (V m c main_arg8)
        (V m c main_v3) (V m c main_arg10) (V m c main_v4) (ix2 r e)
      = stdOf (fun a b => (m ((c : Thread nD τ).loc main_arg0) : FVec Ideal S10000x128 .f32) (ix2 a b)) (fun a b => (m ((c : Thread nD τ).loc main_arg1) : FVec Ideal S10000x10000 .f32) (ix2 a b)) (fun a b => (m ((c : Thread nD τ).loc main_arg2) : FVec Ideal S128x128 .f32) (ix2 a b)) (fun a => (m ((c : Thread nD τ).loc main_arg3) : FVec Ideal S128 .f32) (ix1 a))
          (fun a b => (m ((c : Thread nD τ).loc main_arg8) : FVec Ideal S64x128 .f32) (ix2 a b)) (fun a => (m ((c : Thread nD τ).loc main_arg9) : FVec Ideal S64 .f32) (ix1 a)) (fun a b => (m ((c : Thread nD τ).loc main_arg10) : FVec Ideal S64x64 .f32) (ix2 a b)) (fun a => (m ((c : Thread nD τ).loc main_arg11) : FVec Ideal S64 .f32) (ix1 a))
          (⟨400 * t.val + r.val, by have := t.isLt; have hN : cfg0.N = 25 := N_0; omega⟩ : Fin 10000) e := by
  refine (pay1_apply (k0_pay3 (F := Ideal) (iblk m c 1 t) (scr m c) (iblk m c 2 t) (scr m c)) (V m c main_arg8)
    (V m c main_v3) (V m c main_arg10) (V m c main_v4) r e).trans ?_
  rw [hid_cur m c t, cur_arg8, row_v3, cur_arg10, row_v4]
  rfl

end Cert.KernelIdeal.Rows

end
-- ==== Proof.KIValue.lean ====
/-
  What the idealized kernel's two result arrays hold after the run, on the extended reals.

  The body's stores are read back as its four arithmetic terms: at the first grid point the scratch receives the
  projected features x · W1ᵀ + b1, and at every point — the scratch holding the same projected features ever after —
  the first output block is the mean head and the second the deviation head of the 400 rows of the graph layer that
  the point's two adjacency blocks (rows 400t … 400t+199 and 400t+200 … 400t+399) give. A block of an output is
  therefore the same 400 rows of ONE function of the argument arrays, the 25 blocks tile the 10000 rows, and each
  array ends holding that function: the specification's `meanOf` and `stdOf`.
-/
import proofs.«181588_g59639915872695_cont_sun_m_860_27_alg».proof.Proof.KIMain
import proofs.«181588_g59639915872695_cont_sun_m_860_27_alg».proof.Proof.KIRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

open Idealize.ShloMosaic.ValueIdx
open Cert.KernelIdeal.Blocks

/-! ## The found pieces are the body's arithmetic terms -/

/-- At the first point the scratch ends at the projection term of the feature block, the weight block and the bias row. -/
theorem scr_A (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 = k0_pay2 x0 x3 x4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, View.ld_unit_zero (S := S10000x128) hz, View.ld_unit_zero (S := S200x10000) hz, View.ld_unit_zero (S := S128x128) hz, View.ld_unit_zero (S := S1x128) hz, View.ld_unit_zero (S := S64x128) hz, View.ld_unit_zero (S := S1x64) hz, View.ld_unit_zero (S := S64x64) hz, View.ld_unit_zero (S := S400x64) hz, View.readCov_unit_zero (S := S10000x128) _ hz]

/-- At the first point the first output block ends at the mean-head term over the two adjacency blocks and the scratch just written. -/
theorem out_A_13 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 = k0_pay4 x1 (k0_pay2 x0 x3 x4) x2 (k0_pay2 x0 x3 x4) x5 x6 x7 x8 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, View.ld_unit_zero (S := S10000x128) hz, View.ld_unit_zero (S := S200x10000) hz, View.ld_unit_zero (S := S128x128) hz, View.ld_unit_zero (S := S1x128) hz, View.ld_unit_zero (S := S64x128) hz, View.ld_unit_zero (S := S1x64) hz, View.ld_unit_zero (S := S64x64) hz, View.ld_unit_zero (S := S400x64) hz, View.readCov_unit_zero (S := S10000x128) _ hz]

/-- At the first point the second output block ends at the deviation-head term over the layer term of the same blocks. -/
theorem out_A_14 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 = k0_pay1 (k0_pay3 x1 (k0_pay2 x0 x3 x4) x2 (k0_pay2 x0 x3 x4)) x9 x10 x11 x12 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, View.ld_unit_zero (S := S10000x128) hz, View.ld_unit_zero (S := S200x10000) hz, View.ld_unit_zero (S := S128x128) hz, View.ld_unit_zero (S := S1x128) hz, View.ld_unit_zero (S := S64x128) hz, View.ld_unit_zero (S := S1x64) hz, View.ld_unit_zero (S := S64x64) hz, View.ld_unit_zero (S := S400x64) hz, View.readCov_unit_zero (S := S10000x128) _ hz]

/-- At a later point the first output block ends at the mean-head term over the scratch as it was handed. -/
theorem out_B_13 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0 = k0_pay4 x1 xs0 x2 xs0 x5 x6 x7 x8 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, View.ld_unit_zero (S := S10000x128) hz, View.ld_unit_zero (S := S200x10000) hz, View.ld_unit_zero (S := S128x128) hz, View.ld_unit_zero (S := S1x128) hz, View.ld_unit_zero (S := S64x128) hz, View.ld_unit_zero (S := S1x64) hz, View.ld_unit_zero (S := S64x64) hz, View.ld_unit_zero (S := S400x64) hz, View.readCov_unit_zero (S := S10000x128) _ hz]

/-- At a later point the second output block ends at the deviation-head term over the scratch as it was handed. -/
theorem out_B_14 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S400x64 .f32) (harg14 : arg14.IsWhole) (arg15 : Memref sig .tc .vmem S400x64 .f32) (harg15 : arg15.IsWhole) (arg16 : Memref sig .tc .vmem S10000x128 .bf16) (harg16 : arg16.IsWhole) (hc0 : ¬cond0_0 i) (x0 : Vec F S10000x128 .f32) (x1 : Vec F S200x10000 .f32) (x2 : Vec F S200x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs0 : Vec F S10000x128 .bf16) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0 = k0_pay1 (k0_pay3 x1 xs0 x2 xs0) x9 x10 x11 x12 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, View.ld_unit_zero (S := S10000x128) hz, View.ld_unit_zero (S := S200x10000) hz, View.ld_unit_zero (S := S128x128) hz, View.ld_unit_zero (S := S1x128) hz, View.ld_unit_zero (S := S64x128) hz, View.ld_unit_zero (S := S1x64) hz, View.ld_unit_zero (S := S64x64) hz, View.ld_unit_zero (S := S400x64) hz, View.readCov_unit_zero (S := S10000x128) _ hz]

end Cert.KernelIdeal.Value

namespace Cert.KernelIdeal.Value

open Cert.KernelIdeal Cert.KernelIdeal.Gen Cert.KernelIdeal.Blocks Cert.KernelIdeal.Rows
open Idealize.ShloMosaic.ValueIdx

variable (m : (ℓ : Loc nD τ sig) → Buf (Elt Ideal) ℓ) (ρ : Dev nD → PrngReg)

/-! ## After every point the scratch holds the projected features -/

theorem scr_eq (c : Dev nD) : ∀ (n : ℕ) (hn : n < cfg0.N), (outsAt0 m c n hn).2.2 = scr m c
  | 0, hn => by
    rw [outsAt0_A m c ⟨0, hn⟩ rfl]
    dsimp only
    rw [scr_A, iblk_0 m c, iblk_3 m c, iblk_4 m c]
    rfl
  | n + 1, hn => by
    show (outsAt0 m c n (Nat.lt_of_succ_lt hn)).2.2 = _
    exact scr_eq c n _

/-! ## Each output block at a point, as terms of the region-entry arrays -/

theorem out13_eq (c : Dev nD) (t : Fin cfg0.N) :
    (outsAt0 m c t.val t.isLt).1
      = k0_pay4 (F := Ideal) (iblk m c 1 t) (scr m c) (iblk m c 2 t) (scr m c) (V m c main_arg4) (V m c main_v1) (V m c main_arg6) (V m c main_v2) := by
  by_cases h0 : t.val = 0
  · rw [outsAt0_A m c t h0]
    dsimp only
    rw [out_A_13, iblk_0 m c, iblk_3 m c, iblk_4 m c, iblk_5 m c, iblk_6 m c, iblk_7 m c, iblk_8 m c]
    rfl
  · rw [outsAt0_B m c t h0]
    dsimp only
    rw [out_B_13, scr_eq, iblk_5 m c, iblk_6 m c, iblk_7 m c, iblk_8 m c]

theorem out14_eq (c : Dev nD) (t : Fin cfg0.N) :
    (outsAt0 m c t.val t.isLt).2.1
      = k0_pay1 (F := Ideal) (k0_pay3 (F := Ideal) (iblk m c 1 t) (scr m c) (iblk m c 2 t) (scr m c)) (V m c main_arg8) (V m c main_v3) (V m c main_arg10) (V m c main_v4) := by
  by_cases h0 : t.val = 0
  · rw [outsAt0_A m c t h0]
    dsimp only
    rw [out_A_14, iblk_0 m c, iblk_3 m c, iblk_4 m c, iblk_9 m c, iblk_10 m c, iblk_11 m c, iblk_12 m c]
    rfl
  · rw [outsAt0_B m c t h0]
    dsimp only
    rw [out_B_14, scr_eq, iblk_9 m c, iblk_10 m c, iblk_11 m c, iblk_12 m c]

/-! ## The two result arrays -/

/-- The mean head of the encoder, as contents of the first result array. -/
def G13 (c : Dev nD) : Buf (Elt Ideal) ((c : Thread nD τ).loc main_v5_0) := fun i =>
  Cert.Vgae.meanOf (fun a b => (m ((c : Thread nD τ).loc main_arg0) : FVec Ideal S10000x128 .f32) (ix2 a b)) (fun a b => (m ((c : Thread nD τ).loc main_arg1) : FVec Ideal S10000x10000 .f32) (ix2 a b)) (fun a b => (m ((c : Thread nD τ).loc main_arg2) : FVec Ideal S128x128 .f32) (ix2 a b)) (fun a => (m ((c : Thread nD τ).loc main_arg3) : FVec Ideal S128 .f32) (ix1 a)) (fun a b => (m ((c : Thread nD τ).loc main_arg4) : FVec Ideal S64x128 .f32) (ix2 a b)) (fun a => (m ((c : Thread nD τ).loc main_arg5) : FVec Ideal S64 .f32) (ix1 a)) (fun a b => (m ((c : Thread nD τ).loc main_arg6) : FVec Ideal S64x64 .f32) (ix2 a b)) (fun a => (m ((c : Thread nD τ).loc main_arg7) : FVec Ideal S64 .f32) (ix1 a)) (i 0) (i 1)

/-- The deviation head of the encoder, as contents of the second result array. -/
def G14 (c : Dev nD) : Buf (Elt Ideal) ((c : Thread nD τ).loc main_v5_1) := fun i =>
  Cert.Vgae.stdOf (fun a b => (m ((c : Thread nD τ).loc main_arg0) : FVec Ideal S10000x128 .f32) (ix2 a b)) (fun a b => (m ((c : Thread nD τ).loc main_arg1) : FVec Ideal S10000x10000 .f32) (ix2 a b)) (fun a b => (m ((c : Thread nD τ).loc main_arg2) : FVec Ideal S128x128 .f32) (ix2 a b)) (fun a => (m ((c : Thread nD τ).loc main_arg3) : FVec Ideal S128 .f32) (ix1 a)) (fun a b => (m ((c : Thread nD τ).loc main_arg8) : FVec Ideal S64x128 .f32) (ix2 a b)) (fun a => (m ((c : Thread nD τ).loc main_arg9) : FVec Ideal S64 .f32) (ix1 a)) (fun a b => (m ((c : Thread nD τ).loc main_arg10) : FVec Ideal S64x64 .f32) (ix2 a b)) (fun a => (m ((c : Thread nD τ).loc main_arg11) : FVec Ideal S64 .f32) (ix1 a)) (i 0) (i 1)

/-- What point `t` writes back into the first result array is rows 400t … 400t+399 of the mean head. -/
theorem flushed13 (c : Dev nD) (t : Fin cfg0.N) (hf : (cfg0.win 13).flush t = true) :
    (dats m 0 c).flushed 13 t = ((cfg0.win 13).blk t).view.read (Elt Ideal) (G13 m c) := by
  funext y
  obtain ⟨r, e, rfl⟩ : ∃ (r : Fin 400) (e : Fin 64), y = ix2 r e := ⟨y 0, y 1, eq_ix2 y⟩
  rw [read_blk_13 t (G13 m c) r e]
  show (cfg0.win 13).cut (grid0.coords t) ((dats m 0 c).after 13 t) (ix2 r e) = _
  rw [after0_13, out13_eq]
  exact mean_rows m c t r e

theorem flushed14 (c : Dev nD) (t : Fin cfg0.N) (hf : (cfg0.win 14).flush t = true) :
    (dats m 0 c).flushed 14 t = ((cfg0.win 14).blk t).view.read (Elt Ideal) (G14 m c) := by
  funext y
  obtain ⟨r, e, rfl⟩ : ∃ (r : Fin 400) (e : Fin 64), y = ix2 r e := ⟨y 0, y 1, eq_ix2 y⟩
  rw [read_blk_14 t (G14 m c) r e]
  show (cfg0.win 14).cut (grid0.coords t) ((dats m 0 c).after 14 t) (ix2 r e) = _
  rw [after0_14, out14_eq]
  exact std_rows m c t r e

/-- The 25 blocks tile the rows, so each result array ends holding the head. -/
theorem final13 (c : Dev nD) : (dats m 0 c).arrAt 13 cfg0.N = G13 m c :=
  (dats m 0 c).arrAt_eq_of_cover 13 (G13 m c) (flushed13 m c) (cover_13 c)
theorem final14 (c : Dev nD) : (dats m 0 c).arrAt 14 cfg0.N = G14 m c :=
  (dats m 0 c).arrAt_eq_of_cover 14 (G14 m c) (flushed14 m c) (cover_14 c)

/-- The run, read: the two result arrays at the two heads, the twelve arguments unchanged. -/
theorem run : θ_run defs (onTc (τ := τ) (main (F := Ideal))) ⟨m, fun _ => 0, ρ⟩ fun r => ∀ c : Dev nD,
      r.2.mem ((c.tc : Thread nD τ).loc main_v5_0) = G13 m c
      ∧ r.2.mem ((c.tc : Thread nD τ).loc main_v5_1) = G14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 13).trans (final13 m c), ((h c).1 14).trans (final14 m c), args_kept m r h c⟩)
    (run_main m ρ)

end Cert.KernelIdeal.Value

end
-- ==== Proof.RefSpec.lean ====
import proofs.«181588_g59639915872695_cont_sun_m_860_27_alg».proof.Proof.Gen.ReferenceIdeal.Read
import proofs.«181588_g59639915872695_cont_sun_m_860_27_alg».proof.Proof.Spec

/-!
  The reference is the specification.

  The reference program computes the encoder one array operation at a time.  Each weight matrix is transposed and then
  contracted along its first axis, so entry (p, q) of a product is ∑ⱼ l p j · Wᵀ j q = ∑ⱼ l p j · W q j: rows against
  rows.  Each bias vector is laid along every row and added.  The positive part is a maximum against the constant
  array 0.  The softplus is a selection between z + 0, taken where z − 0 differs from itself, and
  max z 0 + log1p (exp (−|z − 0|)); on the extended reals nothing differs from itself, so the second branch is always
  taken, z − 0 is z, and |d| is max d (−d).

  Every stage below is read at an index (p, q) and identified with the corresponding function of the specification;
  the last section states the two results as whole arrays, over arbitrary argument arrays and over the arguments a
  memory holds on a device.
-/

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Vgae

/-- A rank-2 array as a function of its two coordinates. -/
abbrev c2 {a b : Nat} (x : FVec Ideal ⟨2, ![a, b]⟩ .f32) : Fin a → Fin b → EReal := fun p q => x (ix2 p q)
/-- A rank-1 array as a function of its coordinate. -/
abbrev c1 {a : Nat} (x : FVec Ideal ⟨1, ![a]⟩ .f32) : Fin a → EReal := fun p => x (ix1 p)

/-! ## The graph-convolution layer -/

/-- The projected features: x · W1ᵀ + b1 at (p, q). -/
theorem proj_at (x : FVec Ideal S10000x128 .f32) (W1 : FVec Ideal S128x128 .f32) (b1 : FVec Ideal S128 .f32)
    (p : Fin 10000) (q : Fin 128) :
    val_main_v4 (F := Ideal) x W1 b1 (ix2 p q) = proj (c2 x) (c2 W1) (c1 b1) p q := by
  rw [val_main_v4_apply, val_main_v1_apply, val_main_v3_apply, val_main_v2_apply]
  simp only [val_main_v0_apply]
  rw [Ideal.addf_def]
  have e1 : ∀ k : Fin 128, lidx_main_v1 (ix2 p q) k = ix2 p k := fun k => funext fun a => Fin.ext (by match a with | ⟨0, _⟩ => rfl | ⟨1, _⟩ => rfl)
  have e2 : ∀ k : Fin 128, idx_main_v0 (ridx_main_v1 (ix2 p q) k) = ix2 q k := fun k => funext fun a => Fin.ext (by match a with | ⟨0, _⟩ => rfl | ⟨1, _⟩ => rfl)
  have e3 : idx_main_v2 (idx_main_v3 (ix2 p q)) = ix1 q := funext fun a => Fin.ext (by match a with | ⟨0, _⟩ => rfl)
  simp only [e1, e2, e3]
  rfl

/-- The layer: max (adj · xw) 0 at (p, q). -/
theorem hidden_at (x : FVec Ideal S10000x128 .f32) (adj : FVec Ideal S10000x10000 .f32) (W1 : FVec Ideal S128x128 .f32) (b1 : FVec Ideal S128 .f32)
    (p : Fin 10000) (q : Fin 128) :
    val_main_v6 (F := Ideal) x adj W1 b1 (ix2 p q) = hidden (c2 adj) (proj (c2 x) (c2 W1) (c1 b1)) p q := by
  rw [val_main_v6_apply, val_main_v5_apply, val_main_call0_v0_apply, val_main_call0_cst_apply, Ideal.maximumf_def,
    Ideal.ofBits_def, Ideal.ofBits_zero_f32]
  have e1 : ∀ k : Fin 10000, lidx_main_v5 (ix2 p q) k = ix2 p k := fun k => funext fun a => Fin.ext (by match a with | ⟨0, _⟩ => rfl | ⟨1, _⟩ => rfl)
  have e2 : ∀ k : Fin 10000, ridx_main_v5 (ix2 p q) k = ix2 k q := fun k => funext fun a => Fin.ext (by match a with | ⟨0, _⟩ => rfl | ⟨1, _⟩ => rfl)
  simp only [e1, e2, proj_at]
  rfl

/-! ## The mean head -/

/-- The mean head's inner layer: max (hidden · Wm1ᵀ + bm1) 0 at (p, q). -/
theorem meanInner_at (x : FVec Ideal S10000x128 .f32) (adj : FVec Ideal S10000x10000 .f32) (W1 : FVec Ideal S128x128 .f32) (b1 : FVec Ideal S128 .f32) (Wm1 : FVec Ideal S64x128 .f32) (bm1 : FVec Ideal S64 .f32)
    (p : Fin 10000) (q : Fin 64) :
    val_main_v12 (F := Ideal) x adj W1 b1 Wm1 bm1 (ix2 p q)
      = relu (affT (hidden (c2 adj) (proj (c2 x) (c2 W1) (c1 b1))) (c2 Wm1) (c1 bm1)) p q := by
  rw [val_main_v12_apply, val_main_v11_apply, val_main_v8_apply, val_main_v10_apply, val_main_v9_apply,
    val_main_call1_v0_apply, val_main_call1_cst_apply, Ideal.maximumf_def, Ideal.addf_def, Ideal.ofBits_def,
    Ideal.ofBits_zero_f32]
  simp only [val_main_v7_apply]
  have e1 : ∀ k : Fin 128, lidx_main_v8 (ix2 p q) k = ix2 p k := fun k => funext fun a => Fin.ext (by match a with | ⟨0, _⟩ => rfl | ⟨1, _⟩ => rfl)
  have e2 : ∀ k : Fin 128, idx_main_v7 (ridx_main_v8 (ix2 p q) k) = ix2 q k := fun k => funext fun a => Fin.ext (by match a with | ⟨0, _⟩ => rfl | ⟨1, _⟩ => rfl)
  have e3 : idx_main_v9 (idx_main_v10 (ix2 p q)) = ix1 q := funext fun a => Fin.ext (by match a with | ⟨0, _⟩ => rfl)
  simp only [e1, e2, e3, hidden_at]
  rfl

/-- The mean head at (p, q). -/
theorem mean_at (x : FVec Ideal S10000x128 .f32) (adj : FVec Ideal S10000x10000 .f32) (W1 : FVec Ideal S128x128 .f32) (b1 : FVec Ideal S128 .f32) (Wm1 : FVec Ideal S64x128 .f32) (bm1 : FVec Ideal S64 .f32) (Wm2 : FVec Ideal S64x64 .f32) (bm2 : FVec Ideal S64 .f32)
    (p : Fin 10000) (q : Fin 64) :
    val_main_v17 (F := Ideal) x adj W1 b1 Wm1 bm1 Wm2 bm2 (ix2 p q)
      = meanOf (c2 x) (c2 adj) (c2 W1) (c1 b1) (c2 Wm1) (c1 bm1) (c2 Wm2) (c1 bm2) p q := by
  rw [val_main_v17_apply, val_main_v14_apply, val_main_v16_apply, val_main_v15_apply, Ideal.addf_def]
  simp only [val_main_v13_apply]
  have e1 : ∀ k : Fin 64, lidx_main_v14 (ix2 p q) k = ix2 p k := fun k => funext fun a => Fin.ext (by match a with | ⟨0, _⟩ => rfl | ⟨1, _⟩ => rfl)
  have e2 : ∀ k : Fin 64, idx_main_v13 (ridx_main_v14 (ix2 p q) k) = ix2 q k := fun k => funext fun a => Fin.ext (by match a with | ⟨0, _⟩ => rfl | ⟨1, _⟩ => rfl)
  have e3 : idx_main_v15 (idx_main_v16 (ix2 p q)) = ix1 q := funext fun a => Fin.ext (by match a with | ⟨0, _⟩ => rfl)
  simp only [e1, e2, e3, meanInner_at]
  rfl

/-! ## The deviation head -/

/-- The deviation head's inner layer: max (hidden · Ws1ᵀ + bs1) 0 at (p, q). -/
theorem stdInner_at (x : FVec Ideal S10000x128 .f32) (adj : FVec Ideal S10000x10000 .f32) (W1 : FVec Ideal S128x128 .f32) (b1 : FVec Ideal S128 .f32) (Ws1 : FVec Ideal S64x128 .f32) (bs1 : FVec Ideal S64 .f32)
    (p : Fin 10000) (q : Fin 64) :
    val_main_v23 (F := Ideal) x adj W1 b1 Ws1 bs1 (ix2 p q)
      = relu (affT (hidden (c2 adj) (proj (c2 x) (c2 W1) (c1 b1))) (c2 Ws1) (c1 bs1)) p q := by
  rw [val_main_v23_apply, val_main_v22_apply, val_main_v19_apply, val_main_v21_apply, val_main_v20_apply,
    val_main_call2_v0_apply, val_main_call2_cst_apply, Ideal.maximumf_def, Ideal.addf_def, Ideal.ofBits_def,
    Ideal.ofBits_zero_f32]
  simp only [val_main_v18_apply]
  have e1 : ∀ k : Fin 128, lidx_main_v19 (ix2 p q) k = ix2 p k := fun k => funext fun a => Fin.ext (by match a with | ⟨0, _⟩ => rfl | ⟨1, _⟩ => rfl)
  have e2 : ∀ k : Fin 128, idx_main_v18 (ridx_main_v19 (ix2 p q) k) = ix2 q k := fun k => funext fun a => Fin.ext (by match a with | ⟨0, _⟩ => rfl | ⟨1, _⟩ => rfl)
  have e3 : idx_main_v20 (idx_main_v21 (ix2 p q)) = ix1 q := funext fun a => Fin.ext (by match a with | ⟨0, _⟩ => rfl)
  simp only [e1, e2, e3, hidden_at]
  rfl

/-- The deviation head before its softplus, at (p, q). -/
theorem stdPre_at (x : FVec Ideal S10000x128 .f32) (adj : FVec Ideal S10000x10000 .f32) (W1 : FVec Ideal S128x128 .f32) (b1 : FVec Ideal S128 .f32) (Ws1 : FVec Ideal S64x128 .f32) (bs1 : FVec Ideal S64 .f32) (Ws2 : FVec Ideal S64x64 .f32) (bs2 : FVec Ideal S64 .f32)
    (p : Fin 10000) (q : Fin 64) :
    val_main_v28 (F := Ideal) x adj W1 b1 Ws1 bs1 Ws2 bs2 (ix2 p q)
      = head (hidden (c2 adj) (proj (c2 x) (c2 W1) (c1 b1))) (c2 Ws1) (c1 bs1) (c2 Ws2) (c1 bs2) p q := by
  rw [val_main_v28_apply, val_main_v25_apply, val_main_v27_apply, val_main_v26_apply, Ideal.addf_def]
  simp only [val_main_v24_apply]
  have e1 : ∀ k : Fin 64, lidx_main_v25 (ix2 p q) k = ix2 p k := fun k => funext fun a => Fin.ext (by match a with | ⟨0, _⟩ => rfl | ⟨1, _⟩ => rfl)
  have e2 : ∀ k : Fin 64, idx_main_v24 (ridx_main_v25 (ix2 p q) k) = ix2 q k := fun k => funext fun a => Fin.ext (by match a with | ⟨0, _⟩ => rfl | ⟨1, _⟩ => rfl)
  have e3 : idx_main_v26 (idx_main_v27 (ix2 p q)) = ix1 q := funext fun a => Fin.ext (by match a with | ⟨0, _⟩ => rfl)
  simp only [e1, e2, e3, stdInner_at]
  rfl

/-- An extended real never differs from itself, so a selection on "d ≠ d" takes its second branch; with z − 0 = z the
    reference's spelling of the softplus is the specification's. -/
theorem softplus_read (z : EReal) :
    Scalar.select (Ideal.cmp .une (z - 0) (z - 0)) (z + 0)
        (max z 0 + Ideal.log1p (Ideal.exp (-(max (z - 0) (-(z - 0)))))) = softplus z := by
  have h : Ideal.cmp .une (z - 0) (z - 0) = 0#1 := by simp [Ideal.cmp]
  rw [h, select_zero, sub_zero]
  rfl

/-- The deviation head at (p, q). -/
theorem std_at (x : FVec Ideal S10000x128 .f32) (adj : FVec Ideal S10000x10000 .f32) (W1 : FVec Ideal S128x128 .f32) (b1 : FVec Ideal S128 .f32) (Ws1 : FVec Ideal S64x128 .f32) (bs1 : FVec Ideal S64 .f32) (Ws2 : FVec Ideal S64x64 .f32) (bs2 : FVec Ideal S64 .f32)
    (p : Fin 10000) (q : Fin 64) :
    val_main_v29 (F := Ideal) x adj W1 b1 Ws1 bs1 Ws2 bs2 (ix2 p q)
      = stdOf (c2 x) (c2 adj) (c2 W1) (c1 b1) (c2 Ws1) (c1 bs1) (c2 Ws2) (c1 bs2) p q := by
  rw [val_main_v29_apply, val_main_call3_v4_apply, val_main_call3_v6_apply, val_main_call3_v11_apply,
    val_main_call3_v1_apply, val_main_call3_v10_apply, val_main_call3_v9_apply, val_main_call3_v8_apply,
    val_main_call3_v7_apply, val_main_call3_v3_apply, val_main_call3_v0_apply, val_main_call3_v2_apply,
    val_main_call3_v5_apply]
  simp only [val_main_call3_cst_apply, stdPre_at, Ideal.ofBits_def, Ideal.ofBits_zero_f32, Ideal.cmpf_def,
    Ideal.addf_def, Ideal.subf_def, Ideal.maximumf_def, Ideal.hostUnary_log1p_def, Ideal.hostUnary_exp_def,
    Ideal.hostNegf_def, Ideal.hostAbsf_def, Ideal.negf_def, Ideal.absf_def]
  exact softplus_read _

/-! ## The two results as whole arrays -/

/-- The mean stage is the specification's mean head, index by index. -/
theorem mean_val_eq (x : FVec Ideal S10000x128 .f32) (adj : FVec Ideal S10000x10000 .f32) (W1 : FVec Ideal S128x128 .f32) (b1 : FVec Ideal S128 .f32) (Wm1 : FVec Ideal S64x128 .f32) (bm1 : FVec Ideal S64 .f32) (Wm2 : FVec Ideal S64x64 .f32) (bm2 : FVec Ideal S64 .f32) :
    val_main_v17 (F := Ideal) x adj W1 b1 Wm1 bm1 Wm2 bm2
      = fun i => meanOf (fun a b => x (ix2 a b)) (fun a b => adj (ix2 a b)) (fun a b => W1 (ix2 a b)) (fun a => b1 (ix1 a)) (fun a b => Wm1 (ix2 a b)) (fun a => bm1 (ix1 a)) (fun a b => Wm2 (ix2 a b)) (fun a => bm2 (ix1 a)) (i 0) (i 1) := by
  funext i
  obtain ⟨p, q, rfl⟩ : ∃ (p : Fin 10000) (q : Fin 64), i = ix2 p q := ⟨i 0, i 1, eq_ix2 i⟩
  exact mean_at x adj W1 b1 Wm1 bm1 Wm2 bm2 p q

/-- The deviation stage is the specification's deviation head, index by index. -/
theorem std_eq (x : FVec Ideal S10000x128 .f32) (adj : FVec Ideal S10000x10000 .f32) (W1 : FVec Ideal S128x128 .f32) (b1 : FVec Ideal S128 .f32) (Ws1 : FVec Ideal S64x128 .f32) (bs1 : FVec Ideal S64 .f32) (Ws2 : FVec Ideal S64x64 .f32) (bs2 : FVec Ideal S64 .f32) :
    val_main_v29 (F := Ideal) x adj W1 b1 Ws1 bs1 Ws2 bs2
      = fun i => stdOf (fun a b => x (ix2 a b)) (fun a b => adj (ix2 a b)) (fun a b => W1 (ix2 a b)) (fun a => b1 (ix1 a)) (fun a b => Ws1 (ix2 a b)) (fun a => bs1 (ix1 a)) (fun a b => Ws2 (ix2 a b)) (fun a => bs2 (ix1 a)) (i 0) (i 1) := by
  funext i
  obtain ⟨p, q, rfl⟩ : ∃ (p : Fin 10000) (q : Fin 64), i = ix2 p q := ⟨i 0, i 1, eq_ix2 i⟩
  exact std_at x adj W1 b1 Ws1 bs1 Ws2 bs2 p q

/-- The composed term of the mean result, over arbitrary argument arrays, is the specification's mean head. -/
theorem mean_eq (x : FVec Ideal S10000x128 .f32) (adj : FVec Ideal S10000x10000 .f32) (W1 : FVec Ideal S128x128 .f32) (b1 : FVec Ideal S128 .f32) (Wm1 : FVec Ideal S64x128 .f32) (bm1 : FVec Ideal S64 .f32) (Wm2 : FVec Ideal S64x64 .f32) (bm2 : FVec Ideal S64 .f32) :
    addf (Host.dotGeneral dot_S10000x64_S64x64_S10000x64_1_0_0_1_n_n none (maximumf (addf (Host.dotGeneral dot_S10000x128_S128x64_S10000x64_1_0_0_1_n_n none (maximumf (Host.dotGeneral dot_S10000x10000_S10000x128_S10000x128_1_0_0_1_n_n none adj (addf (Host.dotGeneral dot_S10000x128_S128x128_S10000x128_1_0_0_1_n_n none x (transpose S128x128 [1, 0] W1 transposes_S128x128_S128x128_1_0)) (broadcastInDim S10000x128 ![0, 1] bcast_S1x128_S10000x128_0_1 (broadcastInDim S1x128 ![1] bcast_S128_S1x128_1 b1)))) (broadcastInDim S10000x128 ![] bcast_S_S10000x128 (constant (F := Ideal) S_ .f32 0x00000000#32))) (transpose S128x64 [1, 0] Wm1 transposes_S64x128_S128x64_1_0)) (broadcastInDim S10000x64 ![0, 1] bcast_S1x64_S10000x64_0_1 (broadcastInDim S1x64 ![1] bcast_S64_S1x64_1 bm1))) (broadcastInDim S10000x64 ![] bcast_S_S10000x64 (constant (F := Ideal) S_ .f32 0x00000000#32))) (transpose S64x64 [1, 0] Wm2 transposes_S64x64_S64x64_1_0)) (broadcastInDim S10000x64 ![0, 1] bcast_S1x64_S10000x64_0_1 (broadcastInDim S1x64 ![1] bcast_S64_S1x64_1 bm2))
      = fun i => meanOf (fun a b => x (ix2 a b)) (fun a b => adj (ix2 a b)) (fun a b => W1 (ix2 a b)) (fun a => b1 (ix1 a)) (fun a b => Wm1 (ix2 a b)) (fun a => bm1 (ix1 a)) (fun a b => Wm2 (ix2 a b)) (fun a => bm2 (ix1 a)) (i 0) (i 1) :=
  (val_main_v17_eq (F := Ideal) x adj W1 b1 Wm1 bm1 Wm2 bm2).trans (mean_val_eq x adj W1 b1 Wm1 bm1 Wm2 bm2)

/-- The composed term the run states for the mean result, at the arguments a memory holds on a device, for any float
    values: an abbreviation, so it unfolds to the run's own term. -/
abbrev meanTerm {F : FTy → Type} [FloatOps F] (m : (ℓ : Loc nD τ sig) → Buf (Elt F) ℓ) (c : Dev nD) :
    Buf (Elt F) ((c.tc : Thread nD τ).loc main_v17) :=
  addf (Host.dotGeneral dot_S10000x64_S64x64_S10000x64_1_0_0_1_n_n none (maximumf (addf (Host.dotGeneral dot_S10000x128_S128x64_S10000x64_1_0_0_1_n_n none (maximumf (Host.dotGeneral dot_S10000x10000_S10000x128_S10000x128_1_0_0_1_n_n none (m ((c.tc : Thread nD τ).loc main_arg1)) (addf (Host.dotGeneral dot_S10000x128_S128x128_S10000x128_1_0_0_1_n_n none (m ((c.tc : Thread nD τ).loc main_arg0)) (transpose S128x128 [1, 0] (m ((c.tc : Thread nD τ).loc main_arg2)) transposes_S128x128_S128x128_1_0)) (broadcastInDim S10000x128 ![0, 1] bcast_S1x128_S10000x128_0_1 (broadcastInDim S1x128 ![1] bcast_S128_S1x128_1 (m ((c.tc : Thread nD τ).loc main_arg3)))))) (broadcastInDim S10000x128 ![] bcast_S_S10000x128 (constant S_ .f32 0x00000000#32))) (transpose S128x64 [1, 0] (m ((c.tc : Thread nD τ).loc main_arg4)) transposes_S64x128_S128x64_1_0)) (broadcastInDim S10000x64 ![0, 1] bcast_S1x64_S10000x64_0_1 (broadcastInDim S1x64 ![1] bcast_S64_S1x64_1 (m ((c.tc : Thread nD τ).loc main_arg5))))) (broadcastInDim S10000x64 ![] bcast_S_S10000x64 (constant S_ .f32 0x00000000#32))) (transpose S64x64 [1, 0] (m ((c.tc : Thread nD τ).loc main_arg6)) transposes_S64x64_S64x64_1_0)) (broadcastInDim S10000x64 ![0, 1] bcast_S1x64_S10000x64_0_1 (broadcastInDim S1x64 ![1] bcast_S64_S1x64_1 (m ((c.tc : Thread nD τ).loc main_arg7))))

/-- The mean result as the run states it, at the arguments a memory holds on a device. -/
theorem mean_run (m : (ℓ : Loc nD τ sig) → Buf (Elt Ideal) ℓ) (c : Dev nD) :
    meanTerm (F := Ideal) m c
      = fun i => meanOf (fun a b => ((m ((c.tc : Thread nD τ).loc main_arg0)) : FVec Ideal S10000x128 .f32) (ix2 a b)) (fun a b => ((m ((c.tc : Thread nD τ).loc main_arg1)) : FVec Ideal S10000x10000 .f32) (ix2 a b)) (fun a b => ((m ((c.tc : Thread nD τ).loc main_arg2)) : FVec Ideal S128x128 .f32) (ix2 a b)) (fun a => ((m ((c.tc : Thread nD τ).loc main_arg3)) : FVec Ideal S128 .f32) (ix1 a)) (fun a b => ((m ((c.tc : Thread nD τ).loc main_arg4)) : FVec Ideal S64x128 .f32) (ix2 a b)) (fun a => ((m ((c.tc : Thread nD τ).loc main_arg5)) : FVec Ideal S64 .f32) (ix1 a)) (fun a b => ((m ((c.tc : Thread nD τ).loc main_arg6)) : FVec Ideal S64x64 .f32) (ix2 a b)) (fun a => ((m ((c.tc : Thread nD τ).loc main_arg7)) : FVec Ideal S64 .f32) (ix1 a)) (i 0) (i 1) :=
  mean_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The deviation result as the run names it, at the arguments a memory holds on a device. -/
theorem std_run (m : (ℓ : Loc nD τ sig) → Buf (Elt Ideal) ℓ) (c : Dev nD) :
    Cert.ReferenceIdeal.Value.res_out2 m c
      = fun i => stdOf (fun a b => ((m ((c.tc : Thread nD τ).loc main_arg0)) : FVec Ideal S10000x128 .f32) (ix2 a b)) (fun a b => ((m ((c.tc : Thread nD τ).loc main_arg1)) : FVec Ideal S10000x10000 .f32) (ix2 a b)) (fun a b => ((m ((c.tc : Thread nD τ).loc main_arg2)) : FVec Ideal S128x128 .f32) (ix2 a b)) (fun a => ((m ((c.tc : Thread nD τ).loc main_arg3)) : FVec Ideal S128 .f32) (ix1 a)) (fun a b => ((m ((c.tc : Thread nD τ).loc main_arg8)) : FVec Ideal S64x128 .f32) (ix2 a b)) (fun a => ((m ((c.tc : Thread nD τ).loc main_arg9)) : FVec Ideal S64 .f32) (ix1 a)) (fun a b => ((m ((c.tc : Thread nD τ).loc main_arg10)) : FVec Ideal S64x64 .f32) (ix2 a b)) (fun a => ((m ((c.tc : Thread nD τ).loc main_arg11)) : FVec Ideal S64 .f32) (ix1 a)) (i 0) (i 1) :=
  (val_main_v29_eq (F := Ideal) m c).trans (std_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)))

end Cert.ReferenceIdeal.RefValue

end
-- ==== Proof.lean ====
/-
  The encoder kernel against its reference: the five claims.

  A graph-convolution layer with two perceptron heads — xw = x · W1ᵀ + b1, hidden = max (adj · xw) 0,
  mean = max (hidden · Wm1ᵀ + bm1) 0 · Wm2ᵀ + bm2, std = softplus (max (hidden · Ws1ᵀ + bs1) 0 · Ws2ᵀ + bs2) — computed by
  one pipelined kernel over 25 blocks of 400 rows, which keeps xw in a scratch buffer it fills at the first block and
  reads the adjacency matrix through two windows of 200 rows each, and by a plain host program.

  Frames: each kernel program's run is the launch theorem for windows that share an array applied to proof data
  that deals the adjacency matrix's share in halves to its two windows and tracks the scratch from point to point; the
  host program's run is its operations' composed term. The idealization rewrote nothing. On the extended reals both
  programs compute the same function of the twelve arguments entry by entry: the kernel's blocks are rows of the
  whole-array heads (a matrix unit's product into a zero accumulator and the host's dot product are the same sum, a
  change of float format is the identity, x ≠ x never holds, z − 0 = z and 0 − a = −a), and the blocks tile the rows.
  No finiteness of the inputs is used: no sum is re-associated and no factor moved across one.
-/
import proofs.«181588_g59639915872695_cont_sun_m_860_27_alg».proof.Defs
import proofs.«181588_g59639915872695_cont_sun_m_860_27_alg».proof.Proof.Gen.Kernel
import proofs.«181588_g59639915872695_cont_sun_m_860_27_alg».proof.Proof.Gen.KernelIdeal
import proofs.«181588_g59639915872695_cont_sun_m_860_27_alg».proof.Proof.Gen.ReferenceIdeal
import proofs.«181588_g59639915872695_cont_sun_m_860_27_alg».proof.Proof.Gen.Pre_finite_inputs
import proofs.«181588_g59639915872695_cont_sun_m_860_27_alg».proof.Proof.KMain
import proofs.«181588_g59639915872695_cont_sun_m_860_27_alg».proof.Proof.KIValue
import proofs.«181588_g59639915872695_cont_sun_m_860_27_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The host program's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the twelve arguments both programs end with the mean head in the first two results
    and the deviation head in the third. -/
theorem algebraic : Cert.algebraic_KernelIdeal_ReferenceIdeal := by
  intro m ρ m' ρ' _ hagree
  refine ⟨fun c => Cert.KernelIdeal.Value.G13 m c, fun c => Cert.KernelIdeal.Value.G13 m c,
    fun c => Cert.KernelIdeal.Value.G14 m c, ?_, ?_⟩
  · exact (θ_run Cert.KernelIdeal.defs _ _).mono (fun _ h c => ⟨(h c).1, (h c).1, (h c).2.1, (h c).2.2⟩)
      (Cert.KernelIdeal.Value.run m ρ)
  · refine (θ_run Cert.ReferenceIdeal.defs _ _).mono (fun _ h c => ?_)
      (Cert.ReferenceIdeal.Value.run (F := Ideal) m' ρ')
    obtain ⟨e0, e1, e2, e3, e4, e5, e6, e7, e8, e9, e10, e11⟩ := hagree c
    have hm := Cert.ReferenceIdeal.RefValue.mean_run m' c
    have hs := Cert.ReferenceIdeal.RefValue.std_run m' c
    rw [e0, e1, e2, e3, e4, e5, e6, e7] at hm
    rw [e0, e1, e2, e3, e8, e9, e10, e11] at hs
    exact ⟨(h c).1.trans hm, (h c).1.trans hm, (h c).2.2.1.trans hs, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
